-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_arg1)) (v1 : (c : Dev Cert.KernelIdeal.nD) → Buf (Elt Ideal) ((c.tc : Thread Cert.KernelIdeal.nD Cert.KernelIdeal.τ).loc Cert.KernelIdeal.main_v3_2)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg1) = v0 c
          ∧ r.2.mem ((c.tc : Thread Cert.KernelIdeal.nD Cert.KernelIdeal.τ).loc Cert.KernelIdeal.main_v3_2) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg1) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_arg8 : FVec F S128x128 .f32) (main_arg9 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S128x128 .f32) (main_arg5 : FVec F S128 .f32) (main_arg6 : FVec F S128x128 .f32) (main_arg7 : FVec F S128 .f32) (main_arg8 : FVec F S128x128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S10000x10000 .f32) (main_arg1 : FVec F S10000x128 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩
abbrev S400 : Shape := ⟨1, ![400]⟩
abbrev S400x1 : Shape := ⟨2, ![400, 1]⟩

abbrev nBuf : Space → Nat
  | .hbm => 21
  | .vmem => 30
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S10000x128, .bf16⟩
  | .hbm, ⟨11, _⟩ => ⟨S1x128, .f32⟩
  | .hbm, ⟨12, _⟩ => ⟨S1x128, .f32⟩
  | .hbm, ⟨13, _⟩ => ⟨S10000x128, .f32⟩
  | .hbm, ⟨14, _⟩ => ⟨S10000x128, .bf16⟩
  | .hbm, ⟨15, _⟩ => ⟨S10000x128, .f32⟩
  | .hbm, ⟨16, _⟩ => ⟨S1x128, .f32⟩
  | .hbm, ⟨17, _⟩ => ⟨S1x128, .f32⟩
  | .hbm, ⟨18, _⟩ => ⟨S10000x128, .f32⟩
  | .hbm, ⟨19, _⟩ => ⟨S10000x128, .bf16⟩
  | .hbm, ⟨20, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .bf16⟩
  | .local _ .vmem, ⟨3, _⟩ => ⟨S400x128, .f32⟩
  | .local _ .vmem, ⟨4, _⟩ => ⟨S400x128, .f32⟩
  | .local _ .vmem, ⟨5, _⟩ => ⟨S128x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S400x128, .f32⟩
  | .local _ .vmem, ⟨10, _⟩ => ⟨S400x128, .f32⟩
  | .local _ .vmem, ⟨11, _⟩ => ⟨S400x128, .bf16⟩
  | .local _ .vmem, ⟨12, _⟩ => ⟨S400x128, .bf16⟩
  | .local _ .vmem, ⟨13, _⟩ => ⟨S400x128, .f32⟩
  | .local _ .vmem, ⟨14, _⟩ => ⟨S400x128, .f32⟩
  | .local _ .vmem, ⟨15, _⟩ => ⟨S400x10000, .f32⟩
  | .local _ .vmem, ⟨16, _⟩ => ⟨S400x10000, .f32⟩
  | .local _ .vmem, ⟨17, _⟩ => ⟨S10000x128, .bf16⟩
  | .local _ .vmem, ⟨18, _⟩ => ⟨S400x128, .f32⟩
  | .local _ .vmem, ⟨19, _⟩ => ⟨S400x128, .f32⟩
  | .local _ .vmem, ⟨20, _⟩ => ⟨S128x128, .f32⟩
  | .local _ .vmem, ⟨21, _⟩ => ⟨S1x128, .f32⟩
  | .local _ .vmem, ⟨22, _⟩ => ⟨S128x128, .f32⟩
  | .local _ .vmem, ⟨23, _⟩ => ⟨S1x128, .f32⟩
  | .local _ .vmem, ⟨24, _⟩ => ⟨S400x128, .f32⟩
  | .local _ .vmem, ⟨25, _⟩ => ⟨S400x128, .f32⟩
  | .local _ .vmem, ⟨26, _⟩ => ⟨S400x128, .bf16⟩
  | .local _ .vmem, ⟨27, _⟩ => ⟨S400x128, .bf16⟩
  | .local _ .vmem, ⟨28, _⟩ => ⟨S400x128, .f32⟩
  | .local _ .vmem, ⟨29, _⟩ => ⟨S400x128, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev main_v6_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc1_stg9_0 : Ref sig .tc := ⟨.vmem, 28, rfl⟩
abbrev cc1_stg9_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem7_1 : DmaSem sig := 25
abbrev cc1_sem8_0 : DmaSem sig := 26
abbrev cc1_sem8_1 : DmaSem sig := 27
abbrev cc1_sem9_0 : DmaSem sig := 28
abbrev cc1_sem9_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S400x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S400x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S400x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S400x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S400x128 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S400x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  bitsLt_bf16_f32 : FTy.bits .bf16 < FTy.bits .f32
  shapeCasts_S128_S1x128 : S128.ShapeCasts S1x128
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S400x128_S400x128_0_0 : ∀ a, (![0, 0] : Fin 2 → Nat) a + S400x128.size a ≤ S400x128.size a
  h_S400x128 : 0 < S400x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  packedbf16_S400x128_S400x128_0_0 : (Rect.unit (s := S400x128) ![0, 0] S400x128.size inb_S400x128_S400x128_0_0).PackedRows (EltTy.packing .bf16)
  reduces_S400x128_S400 : S400x128.Reduces [1] S400
  shapeCasts_S400_S400x1 : S400.ShapeCasts S400x1
  broadcasts_S400x1_S400x128 : S400x1.Broadcasts S400x128
  shapeCasts_S400x128_S400x128 : S400x128.ShapeCasts S400x128
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .bf16 = 32 ∨ (Rect.block (s := S10000x128) S10000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x128.size a ≤ S10000x128.size a
  hwx0_2 : ∀ i : grid0.Coords, EltTy.bits .f32 = 32 ∨ (Rect.block (s := S10000x128) S400x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S400x128.size a ≤ S10000x128.size a
  hwx0_7 : ∀ i : grid0.Coords, EltTy.bits .f32 = 32 ∨ (Rect.block (s := S10000x128) S400x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S400x128.size a ≤ S10000x128.size a
  hwx0_8 : ∀ i : grid0.Coords, EltTy.bits .bf16 = 32 ∨ (Rect.block (s := S10000x128) S400x128.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S400x128.size a ≤ S10000x128.size a
  hwx0_9 : ∀ i : grid0.Coords, EltTy.bits .f32 = 32 ∨ (Rect.block (s := S10000x128) S400x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x128.size a ≤ S10000x128.size a
  hwx1_2 : ∀ i : grid1.Coords, EltTy.bits .f32 = 32 ∨ (Rect.block (s := S10000x128) S400x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S400x128.size a ≤ S10000x128.size a
  hwx1_7 : ∀ i : grid1.Coords, EltTy.bits .f32 = 32 ∨ (Rect.block (s := S10000x128) S400x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S400x128.size a ≤ S10000x128.size a
  hwx1_8 : ∀ i : grid1.Coords, EltTy.bits .bf16 = 32 ∨ (Rect.block (s := S10000x128) S400x128.size (cc1_transform_8 i) (hinb1_8 i)).WholeWords (EltTy.packing .bf16)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S400x128.size a ≤ S10000x128.size a
  hwx1_9 : ∀ i : grid1.Coords, EltTy.bits .f32 = 32 ∨ (Rect.block (s := S10000x128) S400x128.size (cc1_transform_9 i) (hinb1_9 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg0) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S400x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3_0) S400x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3_1) S400x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3_2) S400x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_1) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3_0) S400x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v5) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v6_0) S400x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v6_1) S400x128.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v6_2) S400x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S1x128 : Shape := ⟨2, ![1, 128]⟩
abbrev S_ : Shape := ⟨0, ![]⟩
abbrev S10000 : Shape := ⟨1, ![10000]⟩
abbrev S10000x1 : Shape := ⟨2, ![10000, 1]⟩

abbrev nBuf : Space → Nat
  | .hbm => 82
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S10000x128, .f32⟩
  | .hbm, ⟨11, _⟩ => ⟨S10000x128, .f32⟩
  | .hbm, ⟨12, _⟩ => ⟨S10000x128, .f32⟩
  | .hbm, ⟨13, _⟩ => ⟨S1x128, .f32⟩
  | .hbm, ⟨14, _⟩ => ⟨S10000x128, .f32⟩
  | .hbm, ⟨15, _⟩ => ⟨S10000x128, .f32⟩
  | .hbm, ⟨16, _⟩ => ⟨S_, .f32⟩
  | .hbm, ⟨17, _⟩ => ⟨S10000x128, .f32⟩
  | .hbm, ⟨18, _⟩ => ⟨S10000x128, .i1⟩
  | .hbm, ⟨19, _⟩ => ⟨S_, .f32⟩
  | .hbm, ⟨20, _⟩ => ⟨S10000x128, .f32⟩
  | .hbm, ⟨21, _⟩ => ⟨S10000x128, .f32⟩
  | .hbm, ⟨22, _⟩ => ⟨S10000x128, .f32⟩
  | .hbm, ⟨23, _⟩ => ⟨S10000x128, .f32⟩
  | .hbm, ⟨24, _⟩ => ⟨S10000x128, .f32⟩
  | .hbm, ⟨25, _⟩ => ⟨S1x128, .f32⟩
  | .hbm, ⟨26, _⟩ => ⟨S10000x128, .f32⟩
  | .hbm, ⟨27, _⟩ => ⟨S10000x128, .f32⟩
  | .hbm, ⟨28, _⟩ => ⟨S_, .f32⟩
  | .hbm, ⟨29, _⟩ => ⟨S10000x128, .f32⟩
  | .hbm, ⟨30, _⟩ => ⟨S10000x128, .i1⟩
  | .hbm, ⟨31, _⟩ => ⟨S_, .f32⟩
  | .hbm, ⟨32, _⟩ => ⟨S10000x128, .f32⟩
  | .hbm, ⟨33, _⟩ => ⟨S10000x128, .f32⟩
  | .hbm, ⟨34, _⟩ => ⟨S10000x128, .f32⟩
  | .hbm, ⟨35, _⟩ => ⟨S10000x128, .f32⟩
  | .hbm, ⟨36, _⟩ => ⟨S10000x128, .f32⟩
  | .hbm, ⟨37, _⟩ => ⟨S_, .f32⟩
  | .hbm, ⟨38, _⟩ => ⟨S10000, .f32⟩
  | .hbm, ⟨39, _⟩ => ⟨S10000x1, .f32⟩
  | .hbm, ⟨40, _⟩ => ⟨S10000x1, .f32⟩
  | .hbm, ⟨41, _⟩ => ⟨S_, .f32⟩
  | .hbm, ⟨42, _⟩ => ⟨S10000x1, .f32⟩
  | .hbm, ⟨43, _⟩ => ⟨S10000x1, .f32⟩
  | .hbm, ⟨44, _⟩ => ⟨S10000x128, .f32⟩
  | .hbm, ⟨45, _⟩ => ⟨S10000x128, .f32⟩
  | .hbm, ⟨46, _⟩ => ⟨S10000x128, .f32⟩
  | .hbm, ⟨47, _⟩ => ⟨S10000x128, .f32⟩
  | .hbm, ⟨48, _⟩ => ⟨S10000x128, .f32⟩
  | .hbm, ⟨49, _⟩ => ⟨S1x128, .f32⟩
  | .hbm, ⟨50, _⟩ => ⟨S10000x128, .f32⟩
  | .hbm, ⟨51, _⟩ => ⟨S10000x128, .f32⟩
  | .hbm, ⟨52, _⟩ => ⟨S_, .f32⟩
  | .hbm, ⟨53, _⟩ => ⟨S10000x128, .f32⟩
  | .hbm, ⟨54, _⟩ => ⟨S10000x128, .i1⟩
  | .hbm, ⟨55, _⟩ => ⟨S_, .f32⟩
  | .hbm, ⟨56, _⟩ => ⟨S10000x128, .f32⟩
  | .hbm, ⟨57, _⟩ => ⟨S10000x128, .f32⟩
  | .hbm, ⟨58, _⟩ => ⟨S10000x128, .f32⟩
  | .hbm, ⟨59, _⟩ => ⟨S10000x128, .f32⟩
  | .hbm, ⟨60, _⟩ => ⟨S10000x128, .f32⟩
  | .hbm, ⟨61, _⟩ => ⟨S1x128, .f32⟩
  | .hbm, ⟨62, _⟩ => ⟨S10000x128, .f32⟩
  | .hbm, ⟨63, _⟩ => ⟨S10000x128, .f32⟩
  | .hbm, ⟨64, _⟩ => ⟨S_, .f32⟩
  | .hbm, ⟨65, _⟩ => ⟨S10000x128, .f32⟩
  | .hbm, ⟨66, _⟩ => ⟨S10000x128, .i1⟩
  | .hbm, ⟨67, _⟩ => ⟨S_, .f32⟩
  | .hbm, ⟨68, _⟩ => ⟨S10000x128, .f32⟩
  | .hbm, ⟨69, _⟩ => ⟨S10000x128, .f32⟩
  | .hbm, ⟨70, _⟩ => ⟨S10000x128, .f32⟩
  | .hbm, ⟨71, _⟩ => ⟨S10000x128, .f32⟩
  | .hbm, ⟨72, _⟩ => ⟨S10000x128, .f32⟩
  | .hbm, ⟨73, _⟩ => ⟨S_, .f32⟩
  | .hbm, ⟨74, _⟩ => ⟨S10000, .f32⟩
  | .hbm, ⟨75, _⟩ => ⟨S10000x1, .f32⟩
  | .hbm, ⟨76, _⟩ => ⟨S10000x1, .f32⟩
  | .hbm, ⟨77, _⟩ => ⟨S_, .f32⟩
  | .hbm, ⟨78, _⟩ => ⟨S10000x1, .f32⟩
  | .hbm, ⟨79, _⟩ => ⟨S10000x1, .f32⟩
  | .hbm, ⟨80, _⟩ => ⟨S10000x128, .f32⟩
  | .hbm, ⟨81, _⟩ => ⟨S10000x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_7 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_9 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_10 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  reducesTo_S10000x128_S10000_d1 : S10000x128.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.LayerSpec.lean ====
/-
  One bi-interaction graph layer, row by row, on the extended reals.

  For a node with adjacency row a (its weights to all 10000 nodes) and embedding row e (128 features), given the
  embeddings Eb of all nodes:
    side  = a · Eb                                   (the neighbourhood aggregate, 128 features)
    new   = leaky ((e + side) · W1 + b1) + leaky ((e ⊙ side) · W2 + b2)
    norm  = new / max (‖new‖₂, ε)
  with leaky x = x where x ≥ 0 and λ·x elsewhere; λ and ε are the single-precision numbers nearest 0.01 and 1e-12,
  kept as their bit patterns. Every sum is a finite sum of extended reals in the order of its index type; nothing
  here needs the entries to be finite.

  A whole array of nodes is handled one row at a time: row r of the result depends on row r of the adjacency, row r
  of the embeddings that are combined elementwise, and on ALL rows of the embeddings that are aggregated.
-/
import Idealize.ShloMosaic.PureOps.Ideal
import Idealize.ShloMosaic.Lib.ValueIdx

noncomputable section

open scoped BigOperators

namespace Cert.BiLayer

open Idealize.ShloMosaic Idealize.ShloMosaic.ValueIdx

/-- The leaky rectifier: x where 0 ≤ x, λ·x elsewhere. -/
def leaky (x : EReal) : EReal :=
  Scalar.select (Ideal.cmp .oge x (Ideal.ofBits .f32 0x00000000#32)) x (Ideal.ofBits .f32 0x3C23D70A#32 * x)

/-- The neighbourhood aggregate of one node at feature c: Σ_k a(k)·Eb(k, c). -/
def rowSide (a : Fin 10000 → EReal) (Eb : Fin 10000 → Fin 128 → EReal) (c : Fin 128) : EReal :=
  ∑ k : Fin 10000, a k * Eb k c

/-- One dense layer applied to a feature row: Σ_k s(k)·W(k, c) + b(c). -/
def rowDense (s : Fin 128 → EReal) (W : Fin 128 → Fin 128 → EReal) (b : Fin 128 → EReal) (c : Fin 128) : EReal :=
  (∑ k : Fin 128, s k * W k c) + b c

/-- The layer's new embedding of one node at feature c. -/
def rowNew (a : Fin 10000 → EReal) (e : Fin 128 → EReal) (Eb : Fin 10000 → Fin 128 → EReal)
    (W1 : Fin 128 → Fin 128 → EReal) (b1 : Fin 128 → EReal) (W2 : Fin 128 → Fin 128 → EReal) (b2 : Fin 128 → EReal)
    (c : Fin 128) : EReal :=
  leaky (rowDense (fun k => e k + rowSide a Eb k) W1 b1 c) + leaky (rowDense (fun k => e k * rowSide a Eb k) W2 b2 c)

/-- A feature row divided by its Euclidean length, the length bounded below by ε. -/
def rowNorm (n : Fin 128 → EReal) (c : Fin 128) : EReal :=
  Ideal.div (n c) (max (Ideal.sqrt (∑ k : Fin 128, n k * n k)) (Ideal.ofBits .f32 0x2B8CBCCC#32))

/-- The new embeddings of R nodes at once: entry (r, c) is `rowNew` of row r of the adjacency block A and of the
    block E of the embeddings combined elementwise, against all the embeddings Eb. The bias rows come as functions of
    the feature. -/
def newOf {R : ℕ} (A : (⟨2, ![R, 10000]⟩ : Shape).Idx → EReal) (Eb : (⟨2, ![10000, 128]⟩ : Shape).Idx → EReal)
    (E : (⟨2, ![R, 128]⟩ : Shape).Idx → EReal) (W1 : (⟨2, ![128, 128]⟩ : Shape).Idx → EReal) (b1 : Fin 128 → EReal)
    (W2 : (⟨2, ![128, 128]⟩ : Shape).Idx → EReal) (b2 : Fin 128 → EReal) (r : Fin R) (c : Fin 128) : EReal :=
  rowNew (fun k => A (ix2 r k)) (fun k => E (ix2 r k)) (fun k j => Eb (ix2 k j)) (fun k j => W1 (ix2 k j)) b1
    (fun k j => W2 (ix2 k j)) b2 c

/-- The normalised rows of an R×128 array: entry (r, c) is `rowNorm` of row r. -/
def normOf {R : ℕ} (X : (⟨2, ![R, 128]⟩ : Shape).Idx → EReal) (r : Fin R) (c : Fin 128) : EReal :=
  rowNorm (fun k => X (ix2 r k)) c

/-- Rows R·t … R·t + R − 1 of an array of new embeddings are the new embeddings of those rows of the adjacency
    and of the embeddings combined elementwise: the layer acts on each row alone. -/
theorem newOf_rows {R N : ℕ} (A : (⟨2, ![N, 10000]⟩ : Shape).Idx → EReal) (Eb : (⟨2, ![10000, 128]⟩ : Shape).Idx → EReal)
    (E : (⟨2, ![N, 128]⟩ : Shape).Idx → EReal) (W1 : (⟨2, ![128, 128]⟩ : Shape).Idx → EReal) (b1 : Fin 128 → EReal)
    (W2 : (⟨2, ![128, 128]⟩ : Shape).Idx → EReal) (b2 : Fin 128 → EReal)
    (A' : (⟨2, ![R, 10000]⟩ : Shape).Idx → EReal) (E' : (⟨2, ![R, 128]⟩ : Shape).Idx → EReal) (g : Fin R → Fin N)
    (hA : ∀ p k, A' (ix2 p k) = A (ix2 (g p) k)) (hE : ∀ p k, E' (ix2 p k) = E (ix2 (g p) k)) (p : Fin R) (c : Fin 128) :
    newOf A' Eb E' W1 b1 W2 b2 p c = newOf A Eb E W1 b1 W2 b2 (g p) c := by
  unfold newOf
  simp only [hA, hE]

/-- Likewise for the normalised rows. -/
theorem normOf_rows {R N : ℕ} (X : (⟨2, ![N, 128]⟩ : Shape).Idx → EReal) (X' : (⟨2, ![R, 128]⟩ : Shape).Idx → EReal)
    (g : Fin R → Fin N) (hX : ∀ p k, X' (ix2 p k) = X (ix2 (g p) k)) (p : Fin R) (c : Fin 128) :
    normOf X' p c = normOf X (g p) c := by
  unfold normOf
  simp only [hX]

/-! ## Whole arrays of 10000 nodes -/

/-- The layer's new embeddings of all 10000 nodes: entry i = (r, c) from row r of the adjacency A and of the embeddings
    E combined elementwise, all of the aggregated embeddings Eb, the weights, and the biases given as 1×128 rows. -/
def newArr (A : (⟨2, ![10000, 10000]⟩ : Shape).Idx → EReal) (Eb E : (⟨2, ![10000, 128]⟩ : Shape).Idx → EReal)
    (W1 : (⟨2, ![128, 128]⟩ : Shape).Idx → EReal) (b1 : (⟨2, ![1, 128]⟩ : Shape).Idx → EReal)
    (W2 : (⟨2, ![128, 128]⟩ : Shape).Idx → EReal) (b2 : (⟨2, ![1, 128]⟩ : Shape).Idx → EReal) :
    (⟨2, ![10000, 128]⟩ : Shape).Idx → EReal :=
  fun i => newOf (R := 10000) A Eb E W1 (fun q => b1 (ix2 (0 : Fin 1) q)) W2 (fun q => b2 (ix2 (0 : Fin 1) q)) (i 0) (i 1)

/-- Every row of a 10000×128 array normalised. -/
def normArr (X : (⟨2, ![10000, 128]⟩ : Shape).Idx → EReal) : (⟨2, ![10000, 128]⟩ : Shape).Idx → EReal :=
  fun i => normOf (R := 10000) X (i 0) (i 1)

theorem newArr_apply (A : (⟨2, ![10000, 10000]⟩ : Shape).Idx → EReal) (Eb E : (⟨2, ![10000, 128]⟩ : Shape).Idx → EReal)
    (W1 : (⟨2, ![128, 128]⟩ : Shape).Idx → EReal) (b1 : (⟨2, ![1, 128]⟩ : Shape).Idx → EReal)
    (W2 : (⟨2, ![128, 128]⟩ : Shape).Idx → EReal) (b2 : (⟨2, ![1, 128]⟩ : Shape).Idx → EReal) (r : Fin 10000) (c : Fin 128) :
    newArr A Eb E W1 b1 W2 b2 (ix2 r c)
      = newOf (R := 10000) A Eb E W1 (fun q => b1 (ix2 (0 : Fin 1) q)) W2 (fun q => b2 (ix2 (0 : Fin 1) q)) r c := rfl

theorem normArr_apply (X : (⟨2, ![10000, 128]⟩ : Shape).Idx → EReal) (r : Fin 10000) (c : Fin 128) :
    normArr X (ix2 r c) = normOf (R := 10000) X r c := rfl

/-- The node that row p of the t-th block of 400 rows belongs to. -/
def rowOf (t : Fin 25) (p : Fin 400) : Fin 10000 :=
  ⟨t.val * 400 + p.val, by have := t.isLt; have := p.isLt; omega⟩

end Cert.BiLayer

end
-- ==== Proof.KernelRun.lean ====
/-
  The idealized kernel's whole run with its results named.

  The program is: three layout operations on the host (the embeddings in the matrix unit's input precision, the first
  layer's two bias vectors as 1×128 rows), the first layer's region, two more layout operations (the second layer's
  biases), the second layer's region. Every buffer's contents at each of the four boundaries is a fold from the launch
  memory (the frame module's W0 … W4). Here:
    * the run, re-posted with what it really establishes — every unscoped buffer ends at the last boundary's contents W4;
    * the three results and the ten arguments read off W4: the first result is the embeddings argument itself, the
      second is the first region's third output array after its last write-back, the third is the second region's;
    * what each region finds in the arrays of its input windows, as functions of the launch memory and, for the second
      region, of the first region's output arrays.
-/
import proofs.«123246_g30846455120404_cont_sun_m_190_2_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run, with every unscoped buffer's final contents -/

set_option backward.isDefEq.respectTransparency.types false in
/-- From any memory with zero counters every weakly fair execution of @main terminates, nothing faulting, and every
    unscoped TensorCore buffer ends holding the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-! ## The results, read off the last boundary -/

/-- The first region's third output array is no window of the second region and no host operation writes it: at the
    last boundary it still holds what the first region's write-backs left. -/
theorem W4_main_v3_2 (c : Dev nD) : W4 m ρ c (Proc.devRef .tc main_v3_2) = (dat0 (V1 m ρ) c).arrAt 9 cfg0.N :=
  calc W4 m ρ c (Proc.devRef .tc main_v3_2)
    _ = W3 m ρ c (Proc.devRef .tc main_v3_2) := W4_of_ne m ρ c main_v3_2 (by decide)
    _ = W2 m ρ c (Proc.devRef .tc main_v3_2) := StableHlo.after_of_forall_not_mem _ _ (List.forall_iff_forall_mem.mp (by
      simp only [hostOps1, List.Forall, StableHlo.unary_writes, StableHlo.reshape_writes, Finset.mem_singleton]
      repeat' apply And.intro
      all_goals exact StableHlo.devRef_ne_of_ne (by decide)))
    _ = (dat0 (V1 m ρ) c).arrAt 9 cfg0.N := W2_arr m ρ c 9

/-- The second region's third output array at the last boundary is what its write-backs left. -/
theorem W4_main_v6_2 (c : Dev nD) : W4 m ρ c (Proc.devRef .tc main_v6_2) = (dat1 (V3 m ρ) c).arrAt 9 cfg1.N :=
  W4_arr m ρ c 9

/-- The run with its results: the two normalised arrays at what the regions' write-backs leave, the arguments as
    launched. -/
theorem run_results : θ_run defs (onTc (τ := τ) (main (F := F))) ⟨m, fun _ => 0, ρ⟩ (fun r => ∀ c : Dev nD,
      r.2.mem ((c.tc : Thread nD τ).loc main_v3_2) = (dat0 (V1 m ρ) c).arrAt 9 cfg0.N
      ∧ r.2.mem ((c.tc : Thread nD τ).loc main_v6_2) = (dat1 (V3 m ρ) c).arrAt 9 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_v3_2 (by decide))).trans (W4_main_v3_2 m ρ c),
      (h c _ (mem_uc main_v6_2 (by decide))).trans (W4_main_v6_2 m ρ c),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c),
      (h c _ (mem_uc main_arg9 (by decide))).trans (W4_main_arg9 m ρ c)⟩)
    (run_all m ρ)

/-! ## What the first region finds -/

theorem V1_main_arg0 (c : Dev nD) : V1 m ρ c main_arg0 = m ((c : Thread nD τ).loc main_arg0) :=
  StableHlo.after_of_forall_not_mem _ _ (List.forall_iff_forall_mem.mp (by
      simp only [hostOps0, List.Forall, StableHlo.unary_writes, StableHlo.reshape_writes, Finset.mem_singleton]
      repeat' apply And.intro
      all_goals exact StableHlo.devRef_ne_of_ne (by decide)))
theorem V1_main_arg1 (c : Dev nD) : V1 m ρ c main_arg1 = m ((c : Thread nD τ).loc main_arg1) :=
  StableHlo.after_of_forall_not_mem _ _ (List.forall_iff_forall_mem.mp (by
      simp only [hostOps0, List.Forall, StableHlo.unary_writes, StableHlo.reshape_writes, Finset.mem_singleton]
      repeat' apply And.intro
      all_goals exact StableHlo.devRef_ne_of_ne (by decide)))
theorem V1_main_arg2 (c : Dev nD) : V1 m ρ c main_arg2 = m ((c : Thread nD τ).loc main_arg2) :=
  StableHlo.after_of_forall_not_mem _ _ (List.forall_iff_forall_mem.mp (by
      simp only [hostOps0, List.Forall, StableHlo.unary_writes, StableHlo.reshape_writes, Finset.mem_singleton]
      repeat' apply And.intro
      all_goals exact StableHlo.devRef_ne_of_ne (by decide)))
theorem V1_main_arg4 (c : Dev nD) : V1 m ρ c main_arg4 = m ((c : Thread nD τ).loc main_arg4) :=
  StableHlo.after_of_forall_not_mem _ _ (List.forall_iff_forall_mem.mp (by
      simp only [hostOps0, List.Forall, StableHlo.unary_writes, StableHlo.reshape_writes, Finset.mem_singleton]
      repeat' apply And.intro
      all_goals exact StableHlo.devRef_ne_of_ne (by decide)))

/-- The aggregated embeddings are the embeddings argument in the matrix unit's input precision. -/
theorem V1_main_v0 (c : Dev nD) :
    V1 m ρ c main_v0 = (truncf .bf16 (m ((c : Thread nD τ).loc main_arg1)) bitsLt_bf16_f32 : FVec F S10000x128 .bf16) := by
  show StableHlo.after hostOps0 (W0 m ρ c) (Proc.devRef .tc main_v0) = _
  after_results

/-- The first dense layer's bias as a 1×128 row. -/
theorem V1_main_v1 (c : Dev nD) :
    V1 m ρ c main_v1 = (shapeCast S1x128 (m ((c : Thread nD τ).loc main_arg3)) shapeCasts_S128_S1x128 : S1x128.Idx → Elt F .f32) := by
  show StableHlo.after hostOps0 (W0 m ρ c) (Proc.devRef .tc main_v1) = _
  after_results
  rfl

/-- The second dense layer's bias as a 1×128 row. -/
theorem V1_main_v2 (c : Dev nD) :
    V1 m ρ c main_v2 = (shapeCast S1x128 (m ((c : Thread nD τ).loc main_arg5)) shapeCasts_S128_S1x128 : S1x128.Idx → Elt F .f32) := by
  show StableHlo.after hostOps0 (W0 m ρ c) (Proc.devRef .tc main_v2) = _
  after_results
  rfl

/-! ## What the second region finds -/

/-- A buffer that is an INPUT array w of the first region and that no host operation writes holds at the second
    region's entry what it held at launch. -/
theorem V3_main_arg0 (c : Dev nD) : V3 m ρ c main_arg0 = m ((c : Thread nD τ).loc main_arg0) :=
  calc W3 m ρ c (Proc.devRef .tc main_arg0)
    _ = W2 m ρ c (Proc.devRef .tc main_arg0) := StableHlo.after_of_forall_not_mem _ _ (List.forall_iff_forall_mem.mp (by
      simp only [hostOps1, List.Forall, StableHlo.unary_writes, StableHlo.reshape_writes, Finset.mem_singleton]
      repeat' apply And.intro
      all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = m ((c : Thread nD τ).loc main_arg0) := V1_main_arg0 m ρ c

/-- The second layer's weights are no window of the first region. -/
theorem V3_main_arg6 (c : Dev nD) : V3 m ρ c main_arg6 = m ((c : Thread nD τ).loc main_arg6) :=
  calc W3 m ρ c (Proc.devRef .tc main_arg6)
    _ = W2 m ρ c (Proc.devRef .tc main_arg6) := StableHlo.after_of_forall_not_mem _ _ (List.forall_iff_forall_mem.mp (by
      simp only [hostOps1, List.Forall, StableHlo.unary_writes, StableHlo.reshape_writes, Finset.mem_singleton]
      repeat' apply And.intro
      all_goals exact StableHlo.devRef_ne_of_ne (by decide)))
    _ = W1 m ρ c (Proc.devRef .tc main_arg6) := W2_of_ne m ρ c main_arg6 (by decide)
    _ = m ((c : Thread nD τ).loc main_arg6) := StableHlo.after_of_forall_not_mem _ _ (List.forall_iff_forall_mem.mp (by
      simp only [hostOps0, List.Forall, StableHlo.unary_writes, StableHlo.reshape_writes, Finset.mem_singleton]
      repeat' apply And.intro
      all_goals exact StableHlo.devRef_ne_of_ne (by decide)))
theorem V3_main_arg8 (c : Dev nD) : V3 m ρ c main_arg8 = m ((c : Thread nD τ).loc main_arg8) :=
  calc W3 m ρ c (Proc.devRef .tc main_arg8)
    _ = W2 m ρ c (Proc.devRef .tc main_arg8) := StableHlo.after_of_forall_not_mem _ _ (List.forall_iff_forall_mem.mp (by
      simp only [hostOps1, List.Forall, StableHlo.unary_writes, StableHlo.reshape_writes, Finset.mem_singleton]
      repeat' apply And.intro
      all_goals exact StableHlo.devRef_ne_of_ne (by decide)))
    _ = W1 m ρ c (Proc.devRef .tc main_arg8) := W2_of_ne m ρ c main_arg8 (by decide)
    _ = m ((c : Thread nD τ).loc main_arg8) := StableHlo.after_of_forall_not_mem _ _ (List.forall_iff_forall_mem.mp (by
      simp only [hostOps0, List.Forall, StableHlo.unary_writes, StableHlo.reshape_writes, Finset.mem_singleton]
      repeat' apply And.intro
      all_goals exact StableHlo.devRef_ne_of_ne (by decide)))

/-- The embeddings it combines elementwise are the first region's first output array. -/
theorem V3_main_v3_0 (c : Dev nD) : V3 m ρ c main_v3_0 = (dat0 (V1 m ρ) c).arrAt 7 cfg0.N :=
  calc W3 m ρ c (Proc.devRef .tc main_v3_0)
    _ = W2 m ρ c (Proc.devRef .tc main_v3_0) := StableHlo.after_of_forall_not_mem _ _ (List.forall_iff_forall_mem.mp (by
      simp only [hostOps1, List.Forall, StableHlo.unary_writes, StableHlo.reshape_writes, Finset.mem_singleton]
      repeat' apply And.intro
      all_goals exact StableHlo.devRef_ne_of_ne (by decide)))
    _ = (dat0 (V1 m ρ) c).arrAt 7 cfg0.N := W2_arr m ρ c 7

/-- The embeddings it aggregates are the first region's second output array. -/
theorem V3_main_v3_1 (c : Dev nD) : V3 m ρ c main_v3_1 = (dat0 (V1 m ρ) c).arrAt 8 cfg0.N :=
  calc W3 m ρ c (Proc.devRef .tc main_v3_1)
    _ = W2 m ρ c (Proc.devRef .tc main_v3_1) := StableHlo.after_of_forall_not_mem _ _ (List.forall_iff_forall_mem.mp (by
      simp only [hostOps1, List.Forall, StableHlo.unary_writes, StableHlo.reshape_writes, Finset.mem_singleton]
      repeat' apply And.intro
      all_goals exact StableHlo.devRef_ne_of_ne (by decide)))
    _ = (dat0 (V1 m ρ) c).arrAt 8 cfg0.N := W2_arr m ρ c 8

/-- A bias argument of the second layer at the first region's exit: as launched. -/
theorem W2_main_arg7 (c : Dev nD) : W2 m ρ c (Proc.devRef .tc main_arg7) = m ((c : Thread nD τ).loc main_arg7) :=
  (W2_of_ne m ρ c main_arg7 (by decide)).trans (StableHlo.after_of_forall_not_mem _ _ (List.forall_iff_forall_mem.mp (by
      simp only [hostOps0, List.Forall, StableHlo.unary_writes, StableHlo.reshape_writes, Finset.mem_singleton]
      repeat' apply And.intro
      all_goals exact StableHlo.devRef_ne_of_ne (by decide))))
theorem W2_main_arg9 (c : Dev nD) : W2 m ρ c (Proc.devRef .tc main_arg9) = m ((c : Thread nD τ).loc main_arg9) :=
  (W2_of_ne m ρ c main_arg9 (by decide)).trans (StableHlo.after_of_forall_not_mem _ _ (List.forall_iff_forall_mem.mp (by
      simp only [hostOps0, List.Forall, StableHlo.unary_writes, StableHlo.reshape_writes, Finset.mem_singleton]
      repeat' apply And.intro
      all_goals exact StableHlo.devRef_ne_of_ne (by decide))))

/-- The second layer's first bias as a 1×128 row. -/
theorem V3_main_v4 (c : Dev nD) :
    V3 m ρ c main_v4 = (shapeCast S1x128 (m ((c : Thread nD τ).loc main_arg7)) shapeCasts_S128_S1x128 : S1x128.Idx → Elt F .f32) := by
  rw [← W2_main_arg7 m ρ c]
  show StableHlo.after hostOps1 (W2 m ρ c) (Proc.devRef .tc main_v4) = _
  after_results
  rfl

/-- The second layer's second bias as a 1×128 row. -/
theorem V3_main_v5 (c : Dev nD) :
    V3 m ρ c main_v5 = (shapeCast S1x128 (m ((c : Thread nD τ).loc main_arg9)) shapeCasts_S128_S1x128 : S1x128.Idx → Elt F .f32) := by
  rw [← W2_main_arg9 m ρ c]
  show StableHlo.after hostOps1 (W2 m ρ c) (Proc.devRef .tc main_v5) = _
  after_results
  rfl

end Cert.KernelIdeal.WholeRun

end
-- ==== Proof.LibPlainDot.lean ====
/-
  A plain matrix product, M×K by K×N, at the ideal values, read at an index as the sum over the contracted coordinate of
  the products of the operands' entries — for the vector unit's `tpu.matmul` into the zero accumulator and for the host's
  `dot_general` alike. The contraction has one axis, of extent K: its index is that one coordinate (`contrE`), the left
  operand's index at (r, c) and k is (r, k), the right operand's is (k, c).
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The one-axis contraction index of a plain product is its coordinate. -/
def contrE (M K N : Nat) : (DotDims.plain M K N).contr.Idx ≃ Fin K :=
  contrEquiv1 (DotDims.plain M K N) K rfl rfl

theorem contrE_symm_val (k : Fin K) :
    ((contrE M K N).symm k ⟨0, by have h : (DotDims.plain M K N).contr.rank = 1 := rfl; omega⟩ : ℕ) = k.val :=
  contrEquiv1_symm_val (DotDims.plain M K N) K rfl rfl k

/-- The left operand is read at (row of the result, contracted coordinate). -/
theorem lhsIdx_eq (r : Fin M) (c : Fin N) (k : Fin K) :
    (DotDims.plain M K N).lhsIdx (ix2 r c) ((contrE M K N).symm k) = ix2 r k := by
  funext a
  apply Fin.ext
  match a with
  | ⟨0, _⟩ => rfl
  | ⟨1, _⟩ => exact ((DotDims.plain M K N).lhsIdx_val_of_single (cl := 1) rfl (ix2 r c) _).trans (contrE_symm_val k)

/-- The right operand is read at (contracted coordinate, column of the result). -/
theorem rhsIdx_eq (r : Fin M) (c : Fin N) (k : Fin K) :
    (DotDims.plain M K N).rhsIdx (ix2 r c) ((contrE M K N).symm k) = ix2 k c := by
  funext a
  apply Fin.ext
  match a with
  | ⟨0, _⟩ => exact ((DotDims.plain M K N).rhsIdx_val_of_single (cr := 0) rfl (ix2 r c) _).trans (contrE_symm_val k)
  | ⟨1, _⟩ => rfl

/-- The sum over the contraction index of a plain product, re-indexed by the contracted coordinate. -/
theorem sum_contr (f : (⟨2, ![M, K]⟩ : Shape).Idx → EReal) (g : (⟨2, ![K, N]⟩ : Shape).Idx → EReal) (r : Fin M) (c : Fin N) :
    (∑ k : (DotDims.plain M K N).contr.Idx, f ((DotDims.plain M K N).lhsIdx (ix2 r c) k) * g ((DotDims.plain M K N).rhsIdx (ix2 r c) k))
      = ∑ k : Fin K, f (ix2 r k) * g (ix2 k c) := by
  rw [← Equiv.sum_comp (contrE M K N).symm]
  exact Finset.sum_congr rfl fun k _ => by rw [lhsIdx_eq, rhsIdx_eq]

/-- `tpu.matmul` into the zero accumulator, at (r, c). -/
theorem matmul_zero_apply {φ₁ φ₂ : FTy} (prec : Option ContractPrecision)
    (x : FVec Ideal ⟨2, ![M, K]⟩ φ₁) (w : FVec Ideal ⟨2, ![K, N]⟩ φ₂) (r : Fin M) (c : Fin N) :
    FloatOps.matmul (DotDims.plain M K N) prec x w (constant (⟨2, ![M, N]⟩ : Shape) .f32 0x00000000#32) (ix2 r c)
      = ∑ k : Fin K, x (ix2 r k) * w (ix2 k c) :=
  (Ideal.matmul_constant_zero_apply (DotDims.plain M K N) prec x w (ix2 r c)).trans (sum_contr x w r c)

/-- The host's `dot_general`, at (r, c). -/
theorem dotGeneral_apply {φ₁ φ₂ : FTy} (prec : Option ContractPrecision) (sched : HostSchedule)
    (x : FVec Ideal ⟨2, ![M, K]⟩ φ₁) (w : FVec Ideal ⟨2, ![K, N]⟩ φ₂) (r : Fin M) (c : Fin N) :
    FloatOps.dotGeneral (DotDims.plain M K N) prec sched x w (ix2 r c) = ∑ k : Fin K, x (ix2 r k) * w (ix2 k c) :=
  (Ideal.dotGeneral_apply (DotDims.plain M K N) prec sched x w (ix2 r c)).trans (sum_contr x w r c)

end Idealize.ShloMosaic.PlainDot

end
-- ==== Proof.LibKeepdims.lean ====
/-
  A column kept as a unit axis: the two layout operations a row-wise reduction with its axis kept goes through.

  * A length-a vector cast to an a×1 array reads, at (i, u), the vector at i (the unit coordinate u is 0).
  * An a×1 array broadcast to a×b reads, at (p, c), the column's entry at (p, 0), whatever the column c.
-/
import Idealize.ShloMosaic.Lib.Pipeline.Value
import Idealize.ShloMosaic.Lib.ValueIdx
import Idealize.ShloMosaic.Lib.ValueLayout

noncomputable section

namespace Idealize.ShloMosaic.Keepdims

open Idealize.ShloMosaic Idealize.ShloMosaic.ValueIdx

variable {α : Type}

/-- A vector of length a cast to a×1 reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a×1 column broadcast to a×b reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.LibAxisFold.lean ====
/-
  A reduction over one axis of a two-axis array on the extended reals, read at a row or a column.

  For an a×b array X:
    * the index over row p with coordinate k inserted on the second axis is (p, k); over column c with coordinate r
      inserted on the first axis it is (r, c);
    * the vector unit's sum over the second axis, at row p, is Σ_k X(p, k); over the first axis, at column c, Σ_r X(r, c);
    * its maximum over the second axis from the accumulator pattern acc, at row p, is the fold of max over k of X(p, k)
      from the value of acc.
-/
import Idealize.ShloMosaic.PureOps.Ideal.Laws
import Idealize.ShloMosaic.Lib.ValueIdx

noncomputable section

namespace Idealize.ShloMosaic.AxisFold

open Idealize.ShloMosaic Idealize.ShloMosaic.ValueIdx

/-- Row p with k inserted on the second axis is (p, k). -/
theorem lift_second {a b : ℕ} (h : Shape.Reduces ⟨2, ![a, b]⟩ [1] ⟨1, ![a]⟩) (p : Fin a) (k : Fin b) :
    h.lift (ix1 p) k = ix2 p k := by
  funext ax
  apply Fin.ext
  match ax with
  | ⟨0, _⟩ => rfl
  | ⟨1, _⟩ => rfl

/-- Column c with r inserted on the first axis is (r, c). -/
theorem lift_first {a b : ℕ} (h : Shape.Reduces ⟨2, ![a, b]⟩ [0] ⟨1, ![b]⟩) (c : Fin b) (r : Fin a) :
    h.lift (ix1 c) r = ix2 r c := by
  funext ax
  apply Fin.ext
  match ax with
  | ⟨0, _⟩ => rfl
  | ⟨1, _⟩ => rfl

/-- The vector unit's sum over the second axis, at row p. -/
theorem sum_second_apply {a b : ℕ} (X : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ X 0x00000000#32 h hφ hacc (ix1 p) = ∑ k : Fin b, X (ix2 p k) := by
  refine (Ideal.multiReduction_add_single X 0x00000000#32 h hφ hacc (ix1 p)).trans ?_
  exact Finset.sum_congr rfl fun k _ => congrArg X (lift_second h p k)

/-- The vector unit's sum over the first axis, at column c. -/
theorem sum_first_apply {a b : ℕ} (X : FVec Ideal ⟨2, ![a, b]⟩ .f32) (h : Shape.Reduces ⟨2, ![a, b]⟩ [0] ⟨1, ![b]⟩)
    (hφ : FKind.Formats .f32) (hacc : (0x00000000#32 : BitVec 32) = FKind.add.neutral .f32 hφ) (c : Fin b) :
    multiReduction .add [0] ⟨1, ![b]⟩ X 0x00000000#32 h hφ hacc (ix1 c) = ∑ r : Fin a, X (ix2 r c) := by
  refine (Ideal.multiReduction_add_single X 0x00000000#32 h hφ hacc (ix1 c)).trans ?_
  exact Finset.sum_congr rfl fun r _ => congrArg X (lift_first h c r)

/-- The vector unit's maximum over the second axis from the pattern acc, at row p. -/
theorem max_second_apply {a b : ℕ} (X : FVec Ideal ⟨2, ![a, b]⟩ .f32) (acc : BitVec 32) (h : Shape.Reduces ⟨2, ![a, b]⟩ [1] ⟨1, ![a]⟩)
    (hφ : FKind.Formats .f32) (hacc : acc = FKind.maximumf.neutral .f32 hφ) (p : Fin a) :
    multiReduction .maximumf [1] ⟨1, ![a]⟩ X acc h hφ hacc (ix1 p)
      = (Finset.univ : Finset (Fin b)).fold max (Ideal.ofBits .f32 acc) (fun k => X (ix2 p k)) := by
  refine (Ideal.multiReduction_maximumf_single X acc h hφ hacc (ix1 p)).trans ?_
  have e : (X ∘ h.lift (ix1 p)) = fun k : Fin b => X (ix2 p k) :=
    funext fun k => congrArg X (lift_second h p k)
  rw [e]
  rfl

end Idealize.ShloMosaic.AxisFold

end
-- ==== Proof.BlockValue.lean ====
/-
  The bodies' arithmetic at one element, on the extended reals.

  Both layers' kernels run the same body on a block of 400 nodes: from the block's adjacency rows x0 (400×10000), all
  embeddings x1 (10000×128), the block's own embedding rows x2 (400×128), two weight matrices and two bias rows it
  stores the new embeddings (and the same again in the matrix unit's input precision, which at the ideal values is no
  change) and their normalised rows. Read at (p, q):
    * the new embeddings are `newOf` of the block — row p alone of x0 and x2, every row of x1;
    * the normalised rows are `normOf` of the new embeddings — row p alone.
  The three products are plain matrix products into a zero accumulator, sums over the contracted coordinate; the bias
  rows are 1×128 arrays broadcast over the 400 rows; the squared length is the vector unit's sum over the second axis,
  kept as a 400×1 column and broadcast back over the 128 features.
-/
import proofs.«123246_g30846455120404_cont_sun_m_190_2_alg».proof.Proof.Gen.KernelIdeal.Skeleton
import proofs.«123246_g30846455120404_cont_sun_m_190_2_alg».proof.Proof.LayerSpec
import proofs.«123246_g30846455120404_cont_sun_m_190_2_alg».proof.Proof.LibPlainDot
import proofs.«123246_g30846455120404_cont_sun_m_190_2_alg».proof.Proof.LibKeepdims
import proofs.«123246_g30846455120404_cont_sun_m_190_2_alg».proof.Proof.LibAxisFold
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BlockValue

open Cert.KernelIdeal Cert.KernelIdeal.Gen Cert.BiLayer
open Idealize.ShloMosaic Idealize.ShloMosaic.ValueIdx

/-- A scalar constant's word is the extended real it denotes. -/
theorem scalar_ofBits (φ : FTy) (b : BitVec φ.bits) : Scalar.ofBits (F := Ideal) φ b = Ideal.ofBits φ b := rfl

/-- The square root, element by element. -/
theorem sqrt_apply {s : Shape} {φ : FTy} (x : FVec Ideal s φ) (i : s.Idx) : sqrt x i = Ideal.sqrt (x i) := rfl

/-- The aggregate: a 400×10000 by 10000×128 product into the zero accumulator, at (p, q). -/
theorem aggregate_apply {φ₁ φ₂ : FTy} (x : FVec Ideal S400x10000 φ₁) (w : FVec Ideal S10000x128 φ₂) (p : Fin 400) (q : Fin 128) :
    matmul dot_S400x10000_S10000x128_S400x128_1_0_0_1_n_n none x w (constant (F := Ideal) S400x128 .f32 0x00000000#32) (ix2 p q)
      = ∑ k : Fin 10000, x (ix2 p k) * w (ix2 k q) :=
  Idealize.ShloMosaic.PlainDot.matmul_zero_apply (M := 400) (K := 10000) (N := 128) none x w p q

/-- A dense layer's product: 400×128 by 128×128 into the zero accumulator, at (p, q). -/
theorem dense_apply {φ₁ φ₂ : FTy} (x : FVec Ideal S400x128 φ₁) (w : FVec Ideal S128x128 φ₂) (p : Fin 400) (q : Fin 128) :
    matmul dot_S400x128_S128x128_S400x128_1_0_0_1_n_n none x w (constant (F := Ideal) S400x128 .f32 0x00000000#32) (ix2 p q)
      = ∑ k : Fin 128, x (ix2 p k) * w (ix2 k q) :=
  Idealize.ShloMosaic.PlainDot.matmul_zero_apply (M := 400) (K := 128) (N := 128) none x w p q

/-- A bias row over the block's rows reads, at (p, q), the row's entry q. -/
theorem bias_apply (v : FVec Ideal S1x128 .f32) (p : Fin 400) (q : Fin 128) :
    broadcastTo S400x128 v broadcasts_S1x128_S400x128 (ix2 p q) = v (ix2 (0 : Fin 1) q) :=
  broadcastTo_1b_ab_apply v broadcasts_S1x128_S400x128 p q

/-- The sum of a row's entries: the vector unit's sum over the second axis, at row p. -/
theorem rowsum_apply (X : FVec Ideal S400x128 .f32) (hφ : FKind.Formats .f32)
    (hacc : (0x00000000#32 : BitVec 32) = FKind.add.neutral .f32 hφ) (p : Fin 400) :
    multiReduction .add [1] S400 X 0x00000000#32 reduces_S400x128_S400 hφ hacc (ix1 p) = ∑ k : Fin 128, X (ix2 p k) :=
  Idealize.ShloMosaic.AxisFold.sum_second_apply (a := 400) (b := 128) X reduces_S400x128_S400 hφ hacc p

/-- A length-400 vector kept as a 400×1 column reads the vector at the row. -/
theorem column_apply (x : FVec Ideal S400 .f32) (p : Fin 400) :
    shapeCast S400x1 x shapeCasts_S400_S400x1 (ix2 p (0 : Fin 1)) = x (ix1 p) :=
  Idealize.ShloMosaic.Keepdims.shapeCast_a_a1_apply (a := 400) x shapeCasts_S400_S400x1 p 0

/-- A 400×1 column over the 128 features reads the column at the row. -/
theorem overFeatures_apply (v : FVec Ideal S400x1 .f32) (p : Fin 400) (q : Fin 128) :
    broadcastTo S400x128 v broadcasts_S400x1_S400x128 (ix2 p q) = v (ix2 p (0 : Fin 1)) :=
  Idealize.ShloMosaic.Keepdims.broadcastTo_a1_ab_apply (a := 400) (b := 128) v broadcasts_S400x1_S400x128 p q

/-! ## The first layer's body -/

/-- The new embeddings the first layer's body stores, at (p, q). -/
theorem new0_apply (x0 : FVec Ideal S400x10000 .f32) (x1 : FVec Ideal S10000x128 .bf16) (x2 : FVec Ideal S400x128 .f32)
    (w1 : FVec Ideal S128x128 .f32) (b1 : FVec Ideal S1x128 .f32) (w2 : FVec Ideal S128x128 .f32) (b2 : FVec Ideal S1x128 .f32)
    (p : Fin 400) (q : Fin 128) :
    k0_pay2 (F := Ideal) x0 x1 x2 w1 b1 w2 b2 (ix2 p q)
      = newOf (R := 400) x0 x1 x2 w1 (fun c => b1 (ix2 (0 : Fin 1) c)) w2 (fun c => b2 (ix2 (0 : Fin 1) c)) p q := by
  unfold k0_pay2 newOf rowNew rowDense rowSide leaky
  simp only [addf_apply, mulf_apply, select_apply, cmpf_apply, broadcast_apply, dense_apply, aggregate_apply, bias_apply,
    truncf_apply, shapeCast_self, scalar_ofBits, Ideal.cmpf_def]

/-- The same in the matrix unit's input precision: no change at the ideal values. -/
theorem newbf0_apply (x0 : FVec Ideal S400x10000 .f32) (x1 : FVec Ideal S10000x128 .bf16) (x2 : FVec Ideal S400x128 .f32)
    (w1 : FVec Ideal S128x128 .f32) (b1 : FVec Ideal S1x128 .f32) (w2 : FVec Ideal S128x128 .f32) (b2 : FVec Ideal S1x128 .f32)
    (i : S400x128.Idx) :
    k0_pay3 (F := Ideal) x0 x1 x2 w1 b1 w2 b2 i = k0_pay2 (F := Ideal) x0 x1 x2 w1 b1 w2 b2 i := rfl

/-- The normalised rows the first layer's body stores, at (p, q). -/
theorem norm0_apply (n : FVec Ideal S400x128 .f32) (p : Fin 400) (q : Fin 128) :
    k0_pay1 (F := Ideal) n (ix2 p q) = normOf (R := 400) n p q := by
  unfold k0_pay1 normOf rowNorm
  simp only [divf_apply, overFeatures_apply, maximumf_apply, sqrt_apply, column_apply, broadcast_apply, scalar_ofBits]
  refine congrArg (fun s => Ideal.div (n (ix2 p q)) (max (Ideal.sqrt s) (Ideal.ofBits .f32 0x2B8CBCCC#32))) ?_
  exact (rowsum_apply (mulf n n) _ _ p).trans rfl

/-! ## The second layer's body -/

/-- The new embeddings the second layer's body stores, at (p, q). -/
theorem new1_apply (x0 : FVec Ideal S400x10000 .f32) (x1 : FVec Ideal S10000x128 .bf16) (x2 : FVec Ideal S400x128 .f32)
    (w1 : FVec Ideal S128x128 .f32) (b1 : FVec Ideal S1x128 .f32) (w2 : FVec Ideal S128x128 .f32) (b2 : FVec Ideal S1x128 .f32)
    (p : Fin 400) (q : Fin 128) :
    k1_pay2 (F := Ideal) x0 x1 x2 w1 b1 w2 b2 (ix2 p q)
      = newOf (R := 400) x0 x1 x2 w1 (fun c => b1 (ix2 (0 : Fin 1) c)) w2 (fun c => b2 (ix2 (0 : Fin 1) c)) p q := by
  unfold k1_pay2 newOf rowNew rowDense rowSide leaky
  simp only [addf_apply, mulf_apply, select_apply, cmpf_apply, broadcast_apply, dense_apply, aggregate_apply, bias_apply,
    truncf_apply, shapeCast_self, scalar_ofBits, Ideal.cmpf_def]

/-- The same in the matrix unit's input precision: no change at the ideal values. -/
theorem newbf1_apply (x0 : FVec Ideal S400x10000 .f32) (x1 : FVec Ideal S10000x128 .bf16) (x2 : FVec Ideal S400x128 .f32)
    (w1 : FVec Ideal S128x128 .f32) (b1 : FVec Ideal S1x128 .f32) (w2 : FVec Ideal S128x128 .f32) (b2 : FVec Ideal S1x128 .f32)
    (i : S400x128.Idx) :
    k1_pay3 (F := Ideal) x0 x1 x2 w1 b1 w2 b2 i = k1_pay2 (F := Ideal) x0 x1 x2 w1 b1 w2 b2 i := rfl

/-- The normalised rows the second layer's body stores, at (p, q). -/
theorem norm1_apply (n : FVec Ideal S400x128 .f32) (p : Fin 400) (q : Fin 128) :
    k1_pay1 (F := Ideal) n (ix2 p q) = normOf (R := 400) n p q := by
  unfold k1_pay1 normOf rowNorm
  simp only [divf_apply, overFeatures_apply, maximumf_apply, sqrt_apply, column_apply, broadcast_apply, scalar_ofBits]
  refine congrArg (fun s => Ideal.div (n (ix2 p q)) (max (Ideal.sqrt s) (Ideal.ofBits .f32 0x2B8CBCCC#32))) ?_
  exact (rowsum_apply (mulf n n) _ _ p).trans rfl

end Cert.KernelIdeal.BlockValue

end
-- ==== Proof.Region0Value.lean ====
/-
  The first layer's region: its three output arrays after the run, as functions of the arrays it finds.

  The region runs the layer's body on 25 blocks of 400 nodes. At point t the body sees rows 400·t … 400·t + 399 of the
  adjacency and of the embeddings it combines elementwise, and the whole of the aggregated embeddings, the weights and
  the bias rows; it writes rows 400·t … 400·t + 399 of each output. Since the layer acts on each node's row alone
  (`newOf_rows`, `normOf_rows`), what point t writes back is block t of ONE function of the whole arrays, and the 25
  blocks tile the 10000 rows: each output array ends holding that function — the new embeddings `newArr`, the same again,
  and their normalised rows `normArr`.
-/
import proofs.«123246_g30846455120404_cont_sun_m_190_2_alg».proof.Proof.Gen.KernelIdeal.Frame
import proofs.«123246_g30846455120404_cont_sun_m_190_2_alg».proof.Proof.LayerSpec
import proofs.«123246_g30846455120404_cont_sun_m_190_2_alg».proof.Proof.BlockValue
import Idealize.ShloMosaic.Lib.Pipeline.Value
import Idealize.ShloMosaic.Lib.ValueIdx

set_option maxRecDepth 16384

noncomputable section

namespace Cert.KernelIdeal.Region0

open Cert.KernelIdeal Cert.KernelIdeal.Gen Cert.KernelIdeal.BlockValue Cert.BiLayer
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided once over the 25 points: the adjacency, the combined embeddings and the first
    output move one block of rows per point; every other input window stays on its whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)
theorem idx_facts7 : ∀ t : Fin cfg0.N, win0_7.index t (0 : Fin 2) = t.val ∧ win0_7.index t (1 : Fin 2) = 0 :=
  (by decide +kernel : ∀ t : Fin grid0.N, _)
theorem idx_facts8 : ∀ t : Fin cfg0.N, win0_8.index t (0 : Fin 2) = t.val ∧ win0_8.index t (1 : Fin 2) = 0 :=
  (by decide +kernel : ∀ t : Fin grid0.N, _)
theorem idx_facts9 : ∀ t : Fin cfg0.N, win0_9.index t (0 : Fin 2) = t.val ∧ win0_9.index t (1 : Fin 2) = 0 :=
  (by decide +kernel : ∀ t : Fin grid0.N, _)

/-! ## The input blocks -/

/-- Row p of the adjacency block at point t is the adjacency row of node `rowOf t p`. -/
theorem adjacency_row (c : Dev nD) (t : Fin cfg0.N) (p : Fin 400) (k : Fin 10000) :
    iblk0 V c 0 t (ix2 p k) = V c main_arg0 (ix2 (rowOf (t.cast N_0) p) k) := by
  obtain ⟨e0, e1, e2, e3, e4, e5, e6, e7, e8, e9, e10, e11, e12, e13, e14, e15⟩ := idx_facts t
  show V c (Pipeline.arrRef spec0 0) (((cfg0.win 0).blk t).view.emb (ix2 p k)) = V c main_arg0 (ix2 (rowOf (t.cast N_0) p) k)
  refine congrArg (V c main_arg0) ?_
  funext a
  apply Fin.ext
  match a with
  | ⟨0, _⟩ => show win0_0.index t (0 : Fin 2) * 400 + 1 * p.val = t.val * 400 + p.val; omega
  | ⟨1, _⟩ => show win0_0.index t (1 : Fin 2) * 10000 + 1 * k.val = k.val; omega

/-- Row p of the block of combined embeddings at point t is the row of node `rowOf t p`. -/
theorem embedding_row (c : Dev nD) (t : Fin cfg0.N) (p : Fin 400) (k : Fin 128) :
    iblk0 V c 2 t (ix2 p k) = V c main_arg1 (ix2 (rowOf (t.cast N_0) p) k) := by
  obtain ⟨e0, e1, e2, e3, e4, e5, e6, e7, e8, e9, e10, e11, e12, e13, e14, e15⟩ := idx_facts t
  show V c (Pipeline.arrRef spec0 2) (((cfg0.win 2).blk t).view.emb (ix2 p k)) = V c main_arg1 (ix2 (rowOf (t.cast N_0) p) k)
  refine congrArg (V c main_arg1) ?_
  funext a
  apply Fin.ext
  match a with
  | ⟨0, _⟩ => show win0_2.index t (0 : Fin 2) * 400 + 1 * p.val = t.val * 400 + p.val; omega
  | ⟨1, _⟩ => show win0_2.index t (1 : Fin 2) * 128 + 1 * k.val = k.val; omega

/-- Window 1's block is its whole array at every point: the index map is constantly (0, 0). -/
theorem whole1 (c : Dev nD) (t : Fin cfg0.N) : iblk0 V c 1 t = V c main_v0 := by
  obtain ⟨e0, e1, e2, e3, e4, e5, e6, e7, e8, e9, e10, e11, e12, e13, e14, e15⟩ := idx_facts t
  funext y
  show V c (Pipeline.arrRef spec0 1) (((cfg0.win 1).blk t).view.emb y) = V c main_v0 y
  refine congrArg (V c main_v0) ?_
  funext a
  apply Fin.ext
  match a with
  | ⟨0, _⟩ => show win0_1.index t (0 : Fin 2) * 10000 + 1 * (y 0).val = (y 0).val; omega
  | ⟨1, _⟩ => show win0_1.index t (1 : Fin 2) * 128 + 1 * (y 1).val = (y 1).val; omega
/-- Window 3's block is its whole array at every point: the index map is constantly (0, 0). -/
theorem whole3 (c : Dev nD) (t : Fin cfg0.N) : iblk0 V c 3 t = V c main_arg2 := by
  obtain ⟨e0, e1, e2, e3, e4, e5, e6, e7, e8, e9, e10, e11, e12, e13, e14, e15⟩ := idx_facts t
  funext y
  show V c (Pipeline.arrRef spec0 3) (((cfg0.win 3).blk t).view.emb y) = V c main_arg2 y
  refine congrArg (V c main_arg2) ?_
  funext a
  apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega
/-- Window 4's block is its whole array at every point: the index map is constantly (0, 0). -/
theorem whole4 (c : Dev nD) (t : Fin cfg0.N) : iblk0 V c 4 t = V c main_v1 := by
  obtain ⟨e0, e1, e2, e3, e4, e5, e6, e7, e8, e9, e10, e11, e12, e13, e14, e15⟩ := idx_facts t
  funext y
  show V c (Pipeline.arrRef spec0 4) (((cfg0.win 4).blk t).view.emb y) = V c main_v1 y
  refine congrArg (V c main_v1) ?_
  funext a
  apply Fin.ext
  match a with
  | ⟨0, _⟩ => show win0_4.index t (0 : Fin 2) * 1 + 1 * (y 0).val = (y 0).val; omega
  | ⟨1, _⟩ => show win0_4.index t (1 : Fin 2) * 128 + 1 * (y 1).val = (y 1).val; omega
/-- Window 5's block is its whole array at every point: the index map is constantly (0, 0). -/
theorem whole5 (c : Dev nD) (t : Fin cfg0.N) : iblk0 V c 5 t = V c main_arg4 := by
  obtain ⟨e0, e1, e2, e3, e4, e5, e6, e7, e8, e9, e10, e11, e12, e13, e14, e15⟩ := idx_facts t
  funext y
  show V c (Pipeline.arrRef spec0 5) (((cfg0.win 5).blk t).view.emb y) = V c main_arg4 y
  refine congrArg (V c main_arg4) ?_
  funext a
  apply Fin.ext
  match a with
  | ⟨0, _⟩ => show win0_5.index t (0 : Fin 2) * 128 + 1 * (y 0).val = (y 0).val; omega
  | ⟨1, _⟩ => show win0_5.index t (1 : Fin 2) * 128 + 1 * (y 1).val = (y 1).val; omega
/-- Window 6's block is its whole array at every point: the index map is constantly (0, 0). -/
theorem whole6 (c : Dev nD) (t : Fin cfg0.N) : iblk0 V c 6 t = V c main_v2 := by
  obtain ⟨e0, e1, e2, e3, e4, e5, e6, e7, e8, e9, e10, e11, e12, e13, e14, e15⟩ := idx_facts t
  funext y
  show V c (Pipeline.arrRef spec0 6) (((cfg0.win 6).blk t).view.emb y) = V c main_v2 y
  refine congrArg (V c main_v2) ?_
  funext a
  apply Fin.ext
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- The body's new embeddings at point t, row p, feature q: the array-level function at node `rowOf t p`. -/
theorem block_new (c : Dev nD) (t : Fin cfg0.N) (p : Fin 400) (q : Fin 128) :
    k0_pay2 (F := Ideal) (iblk0 V c 0 t) (iblk0 V c 1 t) (iblk0 V c 2 t) (iblk0 V c 3 t) (iblk0 V c 4 t) (iblk0 V c 5 t) (iblk0 V c 6 t) (ix2 p q)
      = (newArr (V c main_arg0) (V c main_v0) (V c main_arg1) (V c main_arg2) (V c main_v1) (V c main_arg4) (V c main_v2)) (ix2 (rowOf (t.cast N_0) p) q) := by
  refine (new0_apply (iblk0 V c 0 t) (iblk0 V c 1 t) (iblk0 V c 2 t) (iblk0 V c 3 t) (iblk0 V c 4 t) (iblk0 V c 5 t) (iblk0 V c 6 t) p q).trans ?_
  rw [whole1, whole3, whole4, whole5, whole6]
  exact newOf_rows (R := 400) (N := 10000) (V c main_arg0) (V c main_v0) (V c main_arg1) (V c main_arg2) (fun q => V c main_v1 (ix2 (0 : Fin 1) q))
    (V c main_arg4) (fun q => V c main_v2 (ix2 (0 : Fin 1) q)) (iblk0 V c 0 t) (iblk0 V c 2 t) (rowOf (t.cast N_0))
    (adjacency_row V c t) (embedding_row V c t) p q

/-! ## Output window 7: the new embeddings -/

/-- Row p of the block at point t sits at node `rowOf t p` of the array, feature q at feature q. -/
theorem emb7 (t : Fin cfg0.N) (p : Fin 400) (q : Fin 128) :
    ((cfg0.win 7).blk t).view.emb (ix2 p q) = ix2 (rowOf (t.cast N_0) p) q := by
  obtain ⟨f0, f1⟩ := idx_facts7 t
  funext a
  apply Fin.ext
  match a with
  | ⟨0, _⟩ => show win0_7.index t (0 : Fin 2) * 400 + 1 * p.val = t.val * 400 + p.val; omega
  | ⟨1, _⟩ => show win0_7.index t (1 : Fin 2) * 128 + 1 * q.val = q.val; omega

/-- What point t writes back is block t of the array-level function. -/
theorem flushed7 (c : Dev nD) (t : Fin cfg0.N) :
    (dat0 V c).flushed 7 t = ((cfg0.win 7).blk t).view.read (Elt Ideal) (newArr (V c main_arg0) (V c main_v0) (V c main_arg1) (V c main_arg2) (V c main_v1) (V c main_arg4) (V c main_v2)) := by
  show (cfg0.win 7).cut (grid0.coords t) ((dat0 V c).after 7 t) = _
  rw [after0_7]
  unfold out0_7
  rw [View.canon_unit_zero hz]
  simp only [View.ld_unit_zero (S := S400x10000) hz, View.ld_unit_zero (S := S10000x128) hz, View.ld_unit_zero (S := S400x128) hz,
    View.ld_unit_zero (S := S128x128) hz, View.ld_unit_zero (S := S1x128) hz]
  funext j
  obtain ⟨p, q, rfl⟩ : ∃ (p : Fin 400) (q : Fin 128), j = ix2 p q := ⟨j 0, j 1, eq_ix2 j⟩
  show _ = (newArr (V c main_arg0) (V c main_v0) (V c main_arg1) (V c main_arg2) (V c main_v1) (V c main_arg4) (V c main_v2)) (((cfg0.win 7).blk t).view.emb (ix2 p q))
  rw [emb7]
  exact block_new V c t p q

/-- An index of the array is in point t's block iff each coordinate is in the block's range on its axis. -/
theorem mem_blk7 (t : Fin cfg0.N) (i : S10000x128.Idx) :
    i ∈ ((cfg0.win 7).blk t).view.set ↔ ∀ a : Fin 2, win0_7.index t a * S400x128.size a ≤ (i a).val ∧ (i a).val < win0_7.index t a * S400x128.size a + S400x128.size a := by
  show i ∈ ((View.whole main_v3_0).slice (win0_7.rect t)).set ↔ _
  rw [View.set_slice_whole, Rect.mem_set_unit]
  exact Iff.rfl

/-- Every node's row is in some point's block: node r in block r / 400. -/
theorem cover7 (i : S10000x128.Idx) :
    ∃ t : Fin cfg0.N, (cfg0.win 7).flush t = true ∧ i ∈ ((cfg0.win 7).blk t).view.set := by
  have hi0 : (i 0).val < 10000 := (i 0).isLt
  have hi1 : (i 1).val < 128 := (i 1).isLt
  have hN : cfg0.N = 25 := N_0
  let t : Fin cfg0.N := ⟨(i 0).val / 400, by rw [hN]; omega⟩
  have ht : t.val = (i 0).val / 400 := rfl
  obtain ⟨f0, f1⟩ := idx_facts7 t
  refine ⟨t, flush0_7 t, ?_⟩
  rw [mem_blk7]
  intro a
  match a with
  | ⟨0, _⟩ => show win0_7.index t (0 : Fin 2) * 400 ≤ (i 0).val ∧ (i 0).val < win0_7.index t (0 : Fin 2) * 400 + 400; omega
  | ⟨1, _⟩ => show win0_7.index t (1 : Fin 2) * 128 ≤ (i 1).val ∧ (i 1).val < win0_7.index t (1 : Fin 2) * 128 + 128; omega

/-- The array after the region's last write-back. -/
theorem final7 (c : Dev nD) : (dat0 V c).arrAt 7 cfg0.N = newArr (V c main_arg0) (V c main_v0) (V c main_arg1) (V c main_arg2) (V c main_v1) (V c main_arg4) (V c main_v2) :=
  (dat0 V c).arrAt_eq_of_cover 7 _ (fun t _ => flushed7 V c t) cover7

/-! ## Output window 8: the new embeddings again, for the next layer's aggregate -/

/-- Row p of the block at point t sits at node `rowOf t p` of the array, feature q at feature q. -/
theorem emb8 (t : Fin cfg0.N) (p : Fin 400) (q : Fin 128) :
    ((cfg0.win 8).blk t).view.emb (ix2 p q) = ix2 (rowOf (t.cast N_0) p) q := by
  obtain ⟨f0, f1⟩ := idx_facts8 t
  funext a
  apply Fin.ext
  match a with
  | ⟨0, _⟩ => show win0_8.index t (0 : Fin 2) * 400 + 1 * p.val = t.val * 400 + p.val; omega
  | ⟨1, _⟩ => show win0_8.index t (1 : Fin 2) * 128 + 1 * q.val = q.val; omega

/-- What point t writes back is block t of the array-level function. -/
theorem flushed8 (c : Dev nD) (t : Fin cfg0.N) :
    (dat0 V c).flushed 8 t = ((cfg0.win 8).blk t).view.read (Elt Ideal) (newArr (V c main_arg0) (V c main_v0) (V c main_arg1) (V c main_arg2) (V c main_v1) (V c main_arg4) (V c main_v2)) := by
  show (cfg0.win 8).cut (grid0.coords t) ((dat0 V c).after 8 t) = _
  rw [after0_8]
  unfold out0_8
  rw [View.canon_unit_zero hz]
  simp only [View.ld_unit_zero (S := S400x10000) hz, View.ld_unit_zero (S := S10000x128) hz, View.ld_unit_zero (S := S400x128) hz,
    View.ld_unit_zero (S := S128x128) hz, View.ld_unit_zero (S := S1x128) hz]
  funext j
  obtain ⟨p, q, rfl⟩ : ∃ (p : Fin 400) (q : Fin 128), j = ix2 p q := ⟨j 0, j 1, eq_ix2 j⟩
  show _ = (newArr (V c main_arg0) (V c main_v0) (V c main_arg1) (V c main_arg2) (V c main_v1) (V c main_arg4) (V c main_v2)) (((cfg0.win 8).blk t).view.emb (ix2 p q))
  rw [emb8]
  exact block_new V c t p q

/-- An index of the array is in point t's block iff each coordinate is in the block's range on its axis. -/
theorem mem_blk8 (t : Fin cfg0.N) (i : S10000x128.Idx) :
    i ∈ ((cfg0.win 8).blk t).view.set ↔ ∀ a : Fin 2, win0_8.index t a * S400x128.size a ≤ (i a).val ∧ (i a).val < win0_8.index t a * S400x128.size a + S400x128.size a := by
  show i ∈ ((View.whole main_v3_1).slice (win0_8.rect t)).set ↔ _
  rw [View.set_slice_whole, Rect.mem_set_unit]
  exact Iff.rfl

/-- Every node's row is in some point's block: node r in block r / 400. -/
theorem cover8 (i : S10000x128.Idx) :
    ∃ t : Fin cfg0.N, (cfg0.win 8).flush t = true ∧ i ∈ ((cfg0.win 8).blk t).view.set := by
  have hi0 : (i 0).val < 10000 := (i 0).isLt
  have hi1 : (i 1).val < 128 := (i 1).isLt
  have hN : cfg0.N = 25 := N_0
  let t : Fin cfg0.N := ⟨(i 0).val / 400, by rw [hN]; omega⟩
  have ht : t.val = (i 0).val / 400 := rfl
  obtain ⟨f0, f1⟩ := idx_facts8 t
  refine ⟨t, flush0_8 t, ?_⟩
  rw [mem_blk8]
  intro a
  match a with
  | ⟨0, _⟩ => show win0_8.index t (0 : Fin 2) * 400 ≤ (i 0).val ∧ (i 0).val < win0_8.index t (0 : Fin 2) * 400 + 400; omega
  | ⟨1, _⟩ => show win0_8.index t (1 : Fin 2) * 128 ≤ (i 1).val ∧ (i 1).val < win0_8.index t (1 : Fin 2) * 128 + 128; omega

/-- The array after the region's last write-back. -/
theorem final8 (c : Dev nD) : (dat0 V c).arrAt 8 cfg0.N = newArr (V c main_arg0) (V c main_v0) (V c main_arg1) (V c main_arg2) (V c main_v1) (V c main_arg4) (V c main_v2) :=
  (dat0 V c).arrAt_eq_of_cover 8 _ (fun t _ => flushed8 V c t) cover8

/-! ## Output window 9: the normalised rows -/

/-- Row p of the block at point t sits at node `rowOf t p` of the array, feature q at feature q. -/
theorem emb9 (t : Fin cfg0.N) (p : Fin 400) (q : Fin 128) :
    ((cfg0.win 9).blk t).view.emb (ix2 p q) = ix2 (rowOf (t.cast N_0) p) q := by
  obtain ⟨f0, f1⟩ := idx_facts9 t
  funext a
  apply Fin.ext
  match a with
  | ⟨0, _⟩ => show win0_9.index t (0 : Fin 2) * 400 + 1 * p.val = t.val * 400 + p.val; omega
  | ⟨1, _⟩ => show win0_9.index t (1 : Fin 2) * 128 + 1 * q.val = q.val; omega

/-- What point t writes back is block t of the array-level function. -/
theorem flushed9 (c : Dev nD) (t : Fin cfg0.N) :
    (dat0 V c).flushed 9 t = ((cfg0.win 9).blk t).view.read (Elt Ideal) (normArr (newArr (V c main_arg0) (V c main_v0) (V c main_arg1) (V c main_arg2) (V c main_v1) (V c main_arg4) (V c main_v2))) := by
  show (cfg0.win 9).cut (grid0.coords t) ((dat0 V c).after 9 t) = _
  rw [after0_9]
  unfold out0_9
  rw [View.canon_unit_zero hz]
  simp only [View.ld_unit_zero (S := S400x10000) hz, View.ld_unit_zero (S := S10000x128) hz, View.ld_unit_zero (S := S400x128) hz,
    View.ld_unit_zero (S := S128x128) hz, View.ld_unit_zero (S := S1x128) hz]
  funext j
  obtain ⟨p, q, rfl⟩ : ∃ (p : Fin 400) (q : Fin 128), j = ix2 p q := ⟨j 0, j 1, eq_ix2 j⟩
  show _ = (normArr (newArr (V c main_arg0) (V c main_v0) (V c main_arg1) (V c main_arg2) (V c main_v1) (V c main_arg4) (V c main_v2))) (((cfg0.win 9).blk t).view.emb (ix2 p q))
  rw [emb9]
  refine (norm0_apply _ p q).trans ?_
  exact normOf_rows (R := 400) (N := 10000) (newArr (V c main_arg0) (V c main_v0) (V c main_arg1) (V c main_arg2) (V c main_v1) (V c main_arg4) (V c main_v2)) _ (rowOf (t.cast N_0)) (fun p k => block_new V c t p k) p q

/-- An index of the array is in point t's block iff each coordinate is in the block's range on its axis. -/
theorem mem_blk9 (t : Fin cfg0.N) (i : S10000x128.Idx) :
    i ∈ ((cfg0.win 9).blk t).view.set ↔ ∀ a : Fin 2, win0_9.index t a * S400x128.size a ≤ (i a).val ∧ (i a).val < win0_9.index t a * S400x128.size a + S400x128.size a := by
  show i ∈ ((View.whole main_v3_2).slice (win0_9.rect t)).set ↔ _
  rw [View.set_slice_whole, Rect.mem_set_unit]
  exact Iff.rfl

/-- Every node's row is in some point's block: node r in block r / 400. -/
theorem cover9 (i : S10000x128.Idx) :
    ∃ t : Fin cfg0.N, (cfg0.win 9).flush t = true ∧ i ∈ ((cfg0.win 9).blk t).view.set := by
  have hi0 : (i 0).val < 10000 := (i 0).isLt
  have hi1 : (i 1).val < 128 := (i 1).isLt
  have hN : cfg0.N = 25 := N_0
  let t : Fin cfg0.N := ⟨(i 0).val / 400, by rw [hN]; omega⟩
  have ht : t.val = (i 0).val / 400 := rfl
  obtain ⟨f0, f1⟩ := idx_facts9 t
  refine ⟨t, flush0_9 t, ?_⟩
  rw [mem_blk9]
  intro a
  match a with
  | ⟨0, _⟩ => show win0_9.index t (0 : Fin 2) * 400 ≤ (i 0).val ∧ (i 0).val < win0_9.index t (0 : Fin 2) * 400 + 400; omega
  | ⟨1, _⟩ => show win0_9.index t (1 : Fin 2) * 128 ≤ (i 1).val ∧ (i 1).val < win0_9.index t (1 : Fin 2) * 128 + 128; omega

/-- The array after the region's last write-back. -/
theorem final9 (c : Dev nD) : (dat0 V c).arrAt 9 cfg0.N = normArr (newArr (V c main_arg0) (V c main_v0) (V c main_arg1) (V c main_arg2) (V c main_v1) (V c main_arg4) (V c main_v2)) :=
  (dat0 V c).arrAt_eq_of_cover 9 _ (fun t _ => flushed9 V c t) cover9

end Cert.KernelIdeal.Region0

end
-- ==== Proof.Region1Value.lean ====
/-
  The second layer's region: its three output arrays after the run, as functions of the arrays it finds.

  The region runs the layer's body on 25 blocks of 400 nodes. At point t the body sees rows 400·t … 400·t + 399 of the
  adjacency and of the embeddings it combines elementwise, and the whole of the aggregated embeddings, the weights and
  the bias rows; it writes rows 400·t … 400·t + 399 of each output. Since the layer acts on each node's row alone
  (`newOf_rows`, `normOf_rows`), what point t writes back is block t of ONE function of the whole arrays, and the 25
  blocks tile the 10000 rows: each output array ends holding that function — the new embeddings `newArr`, the same again,
  and their normalised rows `normArr`.
-/
import proofs.«123246_g30846455120404_cont_sun_m_190_2_alg».proof.Proof.Gen.KernelIdeal.Frame
import proofs.«123246_g30846455120404_cont_sun_m_190_2_alg».proof.Proof.LayerSpec
import proofs.«123246_g30846455120404_cont_sun_m_190_2_alg».proof.Proof.BlockValue
import Idealize.ShloMosaic.Lib.Pipeline.Value
import Idealize.ShloMosaic.Lib.ValueIdx

set_option maxRecDepth 16384

noncomputable section

namespace Cert.KernelIdeal.Region1

open Cert.KernelIdeal Cert.KernelIdeal.Gen Cert.KernelIdeal.BlockValue Cert.BiLayer
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided once over the 25 points: the adjacency, the combined embeddings and the first
    output move one block of rows per point; every other input window stays on its whole array. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)
theorem idx_facts7 : ∀ t : Fin cfg1.N, win1_7.index t (0 : Fin 2) = t.val ∧ win1_7.index t (1 : Fin 2) = 0 :=
  (by decide +kernel : ∀ t : Fin grid1.N, _)
theorem idx_facts8 : ∀ t : Fin cfg1.N, win1_8.index t (0 : Fin 2) = t.val ∧ win1_8.index t (1 : Fin 2) = 0 :=
  (by decide +kernel : ∀ t : Fin grid1.N, _)
theorem idx_facts9 : ∀ t : Fin cfg1.N, win1_9.index t (0 : Fin 2) = t.val ∧ win1_9.index t (1 : Fin 2) = 0 :=
  (by decide +kernel : ∀ t : Fin grid1.N, _)

/-! ## The input blocks -/

/-- Row p of the adjacency block at point t is the adjacency row of node `rowOf t p`. -/
theorem adjacency_row (c : Dev nD) (t : Fin cfg1.N) (p : Fin 400) (k : Fin 10000) :
    iblk1 V c 0 t (ix2 p k) = V c main_arg0 (ix2 (rowOf (t.cast N_1) p) k) := by
  obtain ⟨e0, e1, e2, e3, e4, e5, e6, e7, e8, e9, e10, e11, e12, e13, e14, e15⟩ := idx_facts t
  show V c (Pipeline.arrRef spec1 0) (((cfg1.win 0).blk t).view.emb (ix2 p k)) = V c main_arg0 (ix2 (rowOf (t.cast N_1) p) k)
  refine congrArg (V c main_arg0) ?_
  funext a
  apply Fin.ext
  match a with
  | ⟨0, _⟩ => show win1_0.index t (0 : Fin 2) * 400 + 1 * p.val = t.val * 400 + p.val; omega
  | ⟨1, _⟩ => show win1_0.index t (1 : Fin 2) * 10000 + 1 * k.val = k.val; omega

/-- Row p of the block of combined embeddings at point t is the row of node `rowOf t p`. -/
theorem embedding_row (c : Dev nD) (t : Fin cfg1.N) (p : Fin 400) (k : Fin 128) :
    iblk1 V c 2 t (ix2 p k) = V c main_v3_0 (ix2 (rowOf (t.cast N_1) p) k) := by
  obtain ⟨e0, e1, e2, e3, e4, e5, e6, e7, e8, e9, e10, e11, e12, e13, e14, e15⟩ := idx_facts t
  show V c (Pipeline.arrRef spec1 2) (((cfg1.win 2).blk t).view.emb (ix2 p k)) = V c main_v3_0 (ix2 (rowOf (t.cast N_1) p) k)
  refine congrArg (V c main_v3_0) ?_
  funext a
  apply Fin.ext
  match a with
  | ⟨0, _⟩ => show win1_2.index t (0 : Fin 2) * 400 + 1 * p.val = t.val * 400 + p.val; omega
  | ⟨1, _⟩ => show win1_2.index t (1 : Fin 2) * 128 + 1 * k.val = k.val; omega

/-- Window 1's block is its whole array at every point: the index map is constantly (0, 0). -/
theorem whole1 (c : Dev nD) (t : Fin cfg1.N) : iblk1 V c 1 t = V c main_v3_1 := by
  obtain ⟨e0, e1, e2, e3, e4, e5, e6, e7, e8, e9, e10, e11, e12, e13, e14, e15⟩ := idx_facts t
  funext y
  show V c (Pipeline.arrRef spec1 1) (((cfg1.win 1).blk t).view.emb y) = V c main_v3_1 y
  refine congrArg (V c main_v3_1) ?_
  funext a
  apply Fin.ext
  match a with
  | ⟨0, _⟩ => show win1_1.index t (0 : Fin 2) * 10000 + 1 * (y 0).val = (y 0).val; omega
  | ⟨1, _⟩ => show win1_1.index t (1 : Fin 2) * 128 + 1 * (y 1).val = (y 1).val; omega
/-- Window 3's block is its whole array at every point: the index map is constantly (0, 0). -/
theorem whole3 (c : Dev nD) (t : Fin cfg1.N) : iblk1 V c 3 t = V c main_arg6 := by
  obtain ⟨e0, e1, e2, e3, e4, e5, e6, e7, e8, e9, e10, e11, e12, e13, e14, e15⟩ := idx_facts t
  funext y
  show V c (Pipeline.arrRef spec1 3) (((cfg1.win 3).blk t).view.emb y) = V c main_arg6 y
  refine congrArg (V c main_arg6) ?_
  funext a
  apply Fin.ext
  match a with
  | ⟨0, _⟩ => show win1_3.index t (0 : Fin 2) * 128 + 1 * (y 0).val = (y 0).val; omega
  | ⟨1, _⟩ => show win1_3.index t (1 : Fin 2) * 128 + 1 * (y 1).val = (y 1).val; omega
/-- Window 4's block is its whole array at every point: the index map is constantly (0, 0). -/
theorem whole4 (c : Dev nD) (t : Fin cfg1.N) : iblk1 V c 4 t = V c main_v4 := by
  obtain ⟨e0, e1, e2, e3, e4, e5, e6, e7, e8, e9, e10, e11, e12, e13, e14, e15⟩ := idx_facts t
  funext y
  show V c (Pipeline.arrRef spec1 4) (((cfg1.win 4).blk t).view.emb y) = V c main_v4 y
  refine congrArg (V c main_v4) ?_
  funext a
  apply Fin.ext
  match a with
  | ⟨0, _⟩ => show win1_4.index t (0 : Fin 2) * 1 + 1 * (y 0).val = (y 0).val; omega
  | ⟨1, _⟩ => show win1_4.index t (1 : Fin 2) * 128 + 1 * (y 1).val = (y 1).val; omega
/-- Window 5's block is its whole array at every point: the index map is constantly (0, 0). -/
theorem whole5 (c : Dev nD) (t : Fin cfg1.N) : iblk1 V c 5 t = V c main_arg8 := by
  obtain ⟨e0, e1, e2, e3, e4, e5, e6, e7, e8, e9, e10, e11, e12, e13, e14, e15⟩ := idx_facts t
  funext y
  show V c (Pipeline.arrRef spec1 5) (((cfg1.win 5).blk t).view.emb y) = V c main_arg8 y
  refine congrArg (V c main_arg8) ?_
  funext a
  apply Fin.ext
  match a with
  | ⟨0, _⟩ => show win1_5.index t (0 : Fin 2) * 128 + 1 * (y 0).val = (y 0).val; omega
  | ⟨1, _⟩ => show win1_5.index t (1 : Fin 2) * 128 + 1 * (y 1).val = (y 1).val; omega
/-- Window 6's block is its whole array at every point: the index map is constantly (0, 0). -/
theorem whole6 (c : Dev nD) (t : Fin cfg1.N) : iblk1 V c 6 t = V c main_v5 := by
  obtain ⟨e0, e1, e2, e3, e4, e5, e6, e7, e8, e9, e10, e11, e12, e13, e14, e15⟩ := idx_facts t
  funext y
  show V c (Pipeline.arrRef spec1 6) (((cfg1.win 6).blk t).view.emb y) = V c main_v5 y
  refine congrArg (V c main_v5) ?_
  funext a
  apply Fin.ext
  match a with
  | ⟨0, _⟩ => show win1_6.index t (0 : Fin 2) * 1 + 1 * (y 0).val = (y 0).val; omega
  | ⟨1, _⟩ => show win1_6.index t (1 : Fin 2) * 128 + 1 * (y 1).val = (y 1).val; omega

/-- The body's new embeddings at point t, row p, feature q: the array-level function at node `rowOf t p`. -/
theorem block_new (c : Dev nD) (t : Fin cfg1.N) (p : Fin 400) (q : Fin 128) :
    k1_pay2 (F := Ideal) (iblk1 V c 0 t) (iblk1 V c 1 t) (iblk1 V c 2 t) (iblk1 V c 3 t) (iblk1 V c 4 t) (iblk1 V c 5 t) (iblk1 V c 6 t) (ix2 p q)
      = (newArr (V c main_arg0) (V c main_v3_1) (V c main_v3_0) (V c main_arg6) (V c main_v4) (V c main_arg8) (V c main_v5)) (ix2 (rowOf (t.cast N_1) p) q) := by
  refine (new1_apply (iblk1 V c 0 t) (iblk1 V c 1 t) (iblk1 V c 2 t) (iblk1 V c 3 t) (iblk1 V c 4 t) (iblk1 V c 5 t) (iblk1 V c 6 t) p q).trans ?_
  rw [whole1, whole3, whole4, whole5, whole6]
  exact newOf_rows (R := 400) (N := 10000) (V c main_arg0) (V c main_v3_1) (V c main_v3_0) (V c main_arg6) (fun q => V c main_v4 (ix2 (0 : Fin 1) q))
    (V c main_arg8) (fun q => V c main_v5 (ix2 (0 : Fin 1) q)) (iblk1 V c 0 t) (iblk1 V c 2 t) (rowOf (t.cast N_1))
    (adjacency_row V c t) (embedding_row V c t) p q

/-! ## Output window 7: the new embeddings -/

/-- Row p of the block at point t sits at node `rowOf t p` of the array, feature q at feature q. -/
theorem emb7 (t : Fin cfg1.N) (p : Fin 400) (q : Fin 128) :
    ((cfg1.win 7).blk t).view.emb (ix2 p q) = ix2 (rowOf (t.cast N_1) p) q := by
  obtain ⟨f0, f1⟩ := idx_facts7 t
  funext a
  apply Fin.ext
  match a with
  | ⟨0, _⟩ => show win1_7.index t (0 : Fin 2) * 400 + 1 * p.val = t.val * 400 + p.val; omega
  | ⟨1, _⟩ => show win1_7.index t (1 : Fin 2) * 128 + 1 * q.val = q.val; omega

/-- What point t writes back is block t of the array-level function. -/
theorem flushed7 (c : Dev nD) (t : Fin cfg1.N) :
    (dat1 V c).flushed 7 t = ((cfg1.win 7).blk t).view.read (Elt Ideal) (newArr (V c main_arg0) (V c main_v3_1) (V c main_v3_0) (V c main_arg6) (V c main_v4) (V c main_arg8) (V c main_v5)) := by
  show (cfg1.win 7).cut (grid1.coords t) ((dat1 V c).after 7 t) = _
  rw [after1_7]
  unfold out1_7
  rw [View.canon_unit_zero hz]
  simp only [View.ld_unit_zero (S := S400x10000) hz, View.ld_unit_zero (S := S10000x128) hz, View.ld_unit_zero (S := S400x128) hz,
    View.ld_unit_zero (S := S128x128) hz, View.ld_unit_zero (S := S1x128) hz]
  funext j
  obtain ⟨p, q, rfl⟩ : ∃ (p : Fin 400) (q : Fin 128), j = ix2 p q := ⟨j 0, j 1, eq_ix2 j⟩
  show _ = (newArr (V c main_arg0) (V c main_v3_1) (V c main_v3_0) (V c main_arg6) (V c main_v4) (V c main_arg8) (V c main_v5)) (((cfg1.win 7).blk t).view.emb (ix2 p q))
  rw [emb7]
  exact block_new V c t p q

/-- An index of the array is in point t's block iff each coordinate is in the block's range on its axis. -/
theorem mem_blk7 (t : Fin cfg1.N) (i : S10000x128.Idx) :
    i ∈ ((cfg1.win 7).blk t).view.set ↔ ∀ a : Fin 2, win1_7.index t a * S400x128.size a ≤ (i a).val ∧ (i a).val < win1_7.index t a * S400x128.size a + S400x128.size a := by
  show i ∈ ((View.whole main_v6_0).slice (win1_7.rect t)).set ↔ _
  rw [View.set_slice_whole, Rect.mem_set_unit]
  exact Iff.rfl

/-- Every node's row is in some point's block: node r in block r / 400. -/
theorem cover7 (i : S10000x128.Idx) :
    ∃ t : Fin cfg1.N, (cfg1.win 7).flush t = true ∧ i ∈ ((cfg1.win 7).blk t).view.set := by
  have hi0 : (i 0).val < 10000 := (i 0).isLt
  have hi1 : (i 1).val < 128 := (i 1).isLt
  have hN : cfg1.N = 25 := N_1
  let t : Fin cfg1.N := ⟨(i 0).val / 400, by rw [hN]; omega⟩
  have ht : t.val = (i 0).val / 400 := rfl
  obtain ⟨f0, f1⟩ := idx_facts7 t
  refine ⟨t, flush1_7 t, ?_⟩
  rw [mem_blk7]
  intro a
  match a with
  | ⟨0, _⟩ => show win1_7.index t (0 : Fin 2) * 400 ≤ (i 0).val ∧ (i 0).val < win1_7.index t (0 : Fin 2) * 400 + 400; omega
  | ⟨1, _⟩ => show win1_7.index t (1 : Fin 2) * 128 ≤ (i 1).val ∧ (i 1).val < win1_7.index t (1 : Fin 2) * 128 + 128; omega

/-- The array after the region's last write-back. -/
theorem final7 (c : Dev nD) : (dat1 V c).arrAt 7 cfg1.N = newArr (V c main_arg0) (V c main_v3_1) (V c main_v3_0) (V c main_arg6) (V c main_v4) (V c main_arg8) (V c main_v5) :=
  (dat1 V c).arrAt_eq_of_cover 7 _ (fun t _ => flushed7 V c t) cover7

/-! ## Output window 8: the new embeddings again, for the next layer's aggregate -/

/-- Row p of the block at point t sits at node `rowOf t p` of the array, feature q at feature q. -/
theorem emb8 (t : Fin cfg1.N) (p : Fin 400) (q : Fin 128) :
    ((cfg1.win 8).blk t).view.emb (ix2 p q) = ix2 (rowOf (t.cast N_1) p) q := by
  obtain ⟨f0, f1⟩ := idx_facts8 t
  funext a
  apply Fin.ext
  match a with
  | ⟨0, _⟩ => show win1_8.index t (0 : Fin 2) * 400 + 1 * p.val = t.val * 400 + p.val; omega
  | ⟨1, _⟩ => show win1_8.index t (1 : Fin 2) * 128 + 1 * q.val = q.val; omega

/-- What point t writes back is block t of the array-level function. -/
theorem flushed8 (c : Dev nD) (t : Fin cfg1.N) :
    (dat1 V c).flushed 8 t = ((cfg1.win 8).blk t).view.read (Elt Ideal) (newArr (V c main_arg0) (V c main_v3_1) (V c main_v3_0) (V c main_arg6) (V c main_v4) (V c main_arg8) (V c main_v5)) := by
  show (cfg1.win 8).cut (grid1.coords t) ((dat1 V c).after 8 t) = _
  rw [after1_8]
  unfold out1_8
  rw [View.canon_unit_zero hz]
  simp only [View.ld_unit_zero (S := S400x10000) hz, View.ld_unit_zero (S := S10000x128) hz, View.ld_unit_zero (S := S400x128) hz,
    View.ld_unit_zero (S := S128x128) hz, View.ld_unit_zero (S := S1x128) hz]
  funext j
  obtain ⟨p, q, rfl⟩ : ∃ (p : Fin 400) (q : Fin 128), j = ix2 p q := ⟨j 0, j 1, eq_ix2 j⟩
  show _ = (newArr (V c main_arg0) (V c main_v3_1) (V c main_v3_0) (V c main_arg6) (V c main_v4) (V c main_arg8) (V c main_v5)) (((cfg1.win 8).blk t).view.emb (ix2 p q))
  rw [emb8]
  exact block_new V c t p q

/-- An index of the array is in point t's block iff each coordinate is in the block's range on its axis. -/
theorem mem_blk8 (t : Fin cfg1.N) (i : S10000x128.Idx) :
    i ∈ ((cfg1.win 8).blk t).view.set ↔ ∀ a : Fin 2, win1_8.index t a * S400x128.size a ≤ (i a).val ∧ (i a).val < win1_8.index t a * S400x128.size a + S400x128.size a := by
  show i ∈ ((View.whole main_v6_1).slice (win1_8.rect t)).set ↔ _
  rw [View.set_slice_whole, Rect.mem_set_unit]
  exact Iff.rfl

/-- Every node's row is in some point's block: node r in block r / 400. -/
theorem cover8 (i : S10000x128.Idx) :
    ∃ t : Fin cfg1.N, (cfg1.win 8).flush t = true ∧ i ∈ ((cfg1.win 8).blk t).view.set := by
  have hi0 : (i 0).val < 10000 := (i 0).isLt
  have hi1 : (i 1).val < 128 := (i 1).isLt
  have hN : cfg1.N = 25 := N_1
  let t : Fin cfg1.N := ⟨(i 0).val / 400, by rw [hN]; omega⟩
  have ht : t.val = (i 0).val / 400 := rfl
  obtain ⟨f0, f1⟩ := idx_facts8 t
  refine ⟨t, flush1_8 t, ?_⟩
  rw [mem_blk8]
  intro a
  match a with
  | ⟨0, _⟩ => show win1_8.index t (0 : Fin 2) * 400 ≤ (i 0).val ∧ (i 0).val < win1_8.index t (0 : Fin 2) * 400 + 400; omega
  | ⟨1, _⟩ => show win1_8.index t (1 : Fin 2) * 128 ≤ (i 1).val ∧ (i 1).val < win1_8.index t (1 : Fin 2) * 128 + 128; omega

/-- The array after the region's last write-back. -/
theorem final8 (c : Dev nD) : (dat1 V c).arrAt 8 cfg1.N = newArr (V c main_arg0) (V c main_v3_1) (V c main_v3_0) (V c main_arg6) (V c main_v4) (V c main_arg8) (V c main_v5) :=
  (dat1 V c).arrAt_eq_of_cover 8 _ (fun t _ => flushed8 V c t) cover8

/-! ## Output window 9: the normalised rows -/

/-- Row p of the block at point t sits at node `rowOf t p` of the array, feature q at feature q. -/
theorem emb9 (t : Fin cfg1.N) (p : Fin 400) (q : Fin 128) :
    ((cfg1.win 9).blk t).view.emb (ix2 p q) = ix2 (rowOf (t.cast N_1) p) q := by
  obtain ⟨f0, f1⟩ := idx_facts9 t
  funext a
  apply Fin.ext
  match a with
  | ⟨0, _⟩ => show win1_9.index t (0 : Fin 2) * 400 + 1 * p.val = t.val * 400 + p.val; omega
  | ⟨1, _⟩ => show win1_9.index t (1 : Fin 2) * 128 + 1 * q.val = q.val; omega

/-- What point t writes back is block t of the array-level function. -/
theorem flushed9 (c : Dev nD) (t : Fin cfg1.N) :
    (dat1 V c).flushed 9 t = ((cfg1.win 9).blk t).view.read (Elt Ideal) (normArr (newArr (V c main_arg0) (V c main_v3_1) (V c main_v3_0) (V c main_arg6) (V c main_v4) (V c main_arg8) (V c main_v5))) := by
  show (cfg1.win 9).cut (grid1.coords t) ((dat1 V c).after 9 t) = _
  rw [after1_9]
  unfold out1_9
  rw [View.canon_unit_zero hz]
  simp only [View.ld_unit_zero (S := S400x10000) hz, View.ld_unit_zero (S := S10000x128) hz, View.ld_unit_zero (S := S400x128) hz,
    View.ld_unit_zero (S := S128x128) hz, View.ld_unit_zero (S := S1x128) hz]
  funext j
  obtain ⟨p, q, rfl⟩ : ∃ (p : Fin 400) (q : Fin 128), j = ix2 p q := ⟨j 0, j 1, eq_ix2 j⟩
  show _ = (normArr (newArr (V c main_arg0) (V c main_v3_1) (V c main_v3_0) (V c main_arg6) (V c main_v4) (V c main_arg8) (V c main_v5))) (((cfg1.win 9).blk t).view.emb (ix2 p q))
  rw [emb9]
  refine (norm1_apply _ p q).trans ?_
  exact normOf_rows (R := 400) (N := 10000) (newArr (V c main_arg0) (V c main_v3_1) (V c main_v3_0) (V c main_arg6) (V c main_v4) (V c main_arg8) (V c main_v5)) _ (rowOf (t.cast N_1)) (fun p k => block_new V c t p k) p q

/-- An index of the array is in point t's block iff each coordinate is in the block's range on its axis. -/
theorem mem_blk9 (t : Fin cfg1.N) (i : S10000x128.Idx) :
    i ∈ ((cfg1.win 9).blk t).view.set ↔ ∀ a : Fin 2, win1_9.index t a * S400x128.size a ≤ (i a).val ∧ (i a).val < win1_9.index t a * S400x128.size a + S400x128.size a := by
  show i ∈ ((View.whole main_v6_2).slice (win1_9.rect t)).set ↔ _
  rw [View.set_slice_whole, Rect.mem_set_unit]
  exact Iff.rfl

/-- Every node's row is in some point's block: node r in block r / 400. -/
theorem cover9 (i : S10000x128.Idx) :
    ∃ t : Fin cfg1.N, (cfg1.win 9).flush t = true ∧ i ∈ ((cfg1.win 9).blk t).view.set := by
  have hi0 : (i 0).val < 10000 := (i 0).isLt
  have hi1 : (i 1).val < 128 := (i 1).isLt
  have hN : cfg1.N = 25 := N_1
  let t : Fin cfg1.N := ⟨(i 0).val / 400, by rw [hN]; omega⟩
  have ht : t.val = (i 0).val / 400 := rfl
  obtain ⟨f0, f1⟩ := idx_facts9 t
  refine ⟨t, flush1_9 t, ?_⟩
  rw [mem_blk9]
  intro a
  match a with
  | ⟨0, _⟩ => show win1_9.index t (0 : Fin 2) * 400 ≤ (i 0).val ∧ (i 0).val < win1_9.index t (0 : Fin 2) * 400 + 400; omega
  | ⟨1, _⟩ => show win1_9.index t (1 : Fin 2) * 128 ≤ (i 1).val ∧ (i 1).val < win1_9.index t (1 : Fin 2) * 128 + 128; omega

/-- The array after the region's last write-back. -/
theorem final9 (c : Dev nD) : (dat1 V c).arrAt 9 cfg1.N = normArr (newArr (V c main_arg0) (V c main_v3_1) (V c main_v3_0) (V c main_arg6) (V c main_v4) (V c main_arg8) (V c main_v5)) :=
  (dat1 V c).arrAt_eq_of_cover 9 _ (fun t _ => flushed9 V c t) cover9

end Cert.KernelIdeal.Region1

end
-- ==== Proof.RefRead.lean ====
/-
  The reference program's results are the layer specification.

  The reference computes, for all 10000 nodes at once and twice over: the aggregate A·E as one matrix product, the two
  dense layers on E + A·E and E ⊙ A·E with their biases broadcast over the rows, the leaky rectifier as a comparison and
  a selection, their sum, and that sum's rows divided by their Euclidean length bounded below. Read at (r, c), each
  stage depends on row r of its operand alone, and the chain is `newArr` / `normArr` of the arguments:
    * after the first layer the embeddings are `newArr` of the adjacency, the embeddings (aggregated and combined), the
      first layer's weights and biases;
    * the first normalised result is `normArr` of that;
    * the second layer takes the first layer's embeddings in both places; the second normalised result is `normArr` of it.
  The bias vectors enter the specification as 1×128 rows, the form the kernel's program passes them in.
-/
import proofs.«123246_g30846455120404_cont_sun_m_190_2_alg».proof.Proof.RefRunP
import proofs.«123246_g30846455120404_cont_sun_m_190_2_alg».proof.Proof.RefReadP
import proofs.«123246_g30846455120404_cont_sun_m_190_2_alg».proof.Proof.LayerSpec
import Idealize.ShloMosaic.Lib.ValueIdx
import Idealize.ShloMosaic.Lib.ValueLayout
import Idealize.ShloMosaic.PureOps.Ideal.Laws

noncomputable section

open scoped BigOperators

namespace Cert.ReferenceIdeal.RefValue

open Cert.ReferenceIdeal Cert.ReferenceIdeal.ReadP Cert.BiLayer
open Idealize.ShloMosaic Idealize.ShloMosaic.ValueIdx

/-! ## The composed index functions, by coordinates -/

theorem lidx0 (r : Fin 10000) (c : Fin 128) (k : Fin 10000) : lidx_main_v0 (ix2 r c) k = ix2 r k := by
  funext a; match a with | ⟨0, _⟩ => rfl | ⟨1, _⟩ => rfl
theorem ridx0 (r : Fin 10000) (c : Fin 128) (k : Fin 10000) : ridx_main_v0 (ix2 r c) k = ix2 k c := by
  funext a; match a with | ⟨0, _⟩ => rfl | ⟨1, _⟩ => rfl
theorem lidx30 (r : Fin 10000) (c : Fin 128) (k : Fin 10000) : lidx_main_v30 (ix2 r c) k = ix2 r k := by
  funext a; match a with | ⟨0, _⟩ => rfl | ⟨1, _⟩ => rfl
theorem ridx30 (r : Fin 10000) (c : Fin 128) (k : Fin 10000) : ridx_main_v30 (ix2 r c) k = ix2 k c := by
  funext a; match a with | ⟨0, _⟩ => rfl | ⟨1, _⟩ => rfl
theorem lidx2 (r : Fin 10000) (c : Fin 128) (k : Fin 128) : lidx_main_v2 (ix2 r c) k = ix2 r k := by
  funext a; match a with | ⟨0, _⟩ => rfl | ⟨1, _⟩ => rfl
theorem ridx2 (r : Fin 10000) (c : Fin 128) (k : Fin 128) : ridx_main_v2 (ix2 r c) k = ix2 k c := by
  funext a; match a with | ⟨0, _⟩ => rfl | ⟨1, _⟩ => rfl
theorem lidx12 (r : Fin 10000) (c : Fin 128) (k : Fin 128) : lidx_main_v12 (ix2 r c) k = ix2 r k := by
  funext a; match a with | ⟨0, _⟩ => rfl | ⟨1, _⟩ => rfl
theorem ridx12 (r : Fin 10000) (c : Fin 128) (k : Fin 128) : ridx_main_v12 (ix2 r c) k = ix2 k c := by
  funext a; match a with | ⟨0, _⟩ => rfl | ⟨1, _⟩ => rfl
theorem lidx32 (r : Fin 10000) (c : Fin 128) (k : Fin 128) : lidx_main_v32 (ix2 r c) k = ix2 r k := by
  funext a; match a with | ⟨0, _⟩ => rfl | ⟨1, _⟩ => rfl
theorem ridx32 (r : Fin 10000) (c : Fin 128) (k : Fin 128) : ridx_main_v32 (ix2 r c) k = ix2 k c := by
  funext a; match a with | ⟨0, _⟩ => rfl | ⟨1, _⟩ => rfl
theorem lidx42 (r : Fin 10000) (c : Fin 128) (k : Fin 128) : lidx_main_v42 (ix2 r c) k = ix2 r k := by
  funext a; match a with | ⟨0, _⟩ => rfl | ⟨1, _⟩ => rfl
theorem ridx42 (r : Fin 10000) (c : Fin 128) (k : Fin 128) : ridx_main_v42 (ix2 r c) k = ix2 k c := by
  funext a; match a with | ⟨0, _⟩ => rfl | ⟨1, _⟩ => rfl
theorem idx3 (u : Fin 1) (c : Fin 128) : idx_main_v3 (ix2 u c) = ix1 c := by
  funext a; match a with | ⟨0, _⟩ => rfl
theorem idx13 (u : Fin 1) (c : Fin 128) : idx_main_v13 (ix2 u c) = ix1 c := by
  funext a; match a with | ⟨0, _⟩ => rfl
theorem idx33 (u : Fin 1) (c : Fin 128) : idx_main_v33 (ix2 u c) = ix1 c := by
  funext a; match a with | ⟨0, _⟩ => rfl
theorem idx43 (u : Fin 1) (c : Fin 128) : idx_main_v43 (ix2 u c) = ix1 c := by
  funext a; match a with | ⟨0, _⟩ => rfl
theorem idx4 (r : Fin 10000) (c : Fin 128) : idx_main_v4 (ix2 r c) = ix2 (0 : Fin 1) c := by
  funext a; match a with | ⟨0, _⟩ => rfl | ⟨1, _⟩ => rfl
theorem idx14 (r : Fin 10000) (c : Fin 128) : idx_main_v14 (ix2 r c) = ix2 (0 : Fin 1) c := by
  funext a; match a with | ⟨0, _⟩ => rfl | ⟨1, _⟩ => rfl
theorem idx34 (r : Fin 10000) (c : Fin 128) : idx_main_v34 (ix2 r c) = ix2 (0 : Fin 1) c := by
  funext a; match a with | ⟨0, _⟩ => rfl | ⟨1, _⟩ => rfl
theorem idx44 (r : Fin 10000) (c : Fin 128) : idx_main_v44 (ix2 r c) = ix2 (0 : Fin 1) c := by
  funext a; match a with | ⟨0, _⟩ => rfl | ⟨1, _⟩ => rfl
theorem idx23 (r : Fin 10000) (k : Fin 128) : idx_main_v23 (ix1 r) k = ix2 r k := by
  funext a; match a with | ⟨0, _⟩ => rfl | ⟨1, _⟩ => rfl
theorem idx53 (r : Fin 10000) (k : Fin 128) : idx_main_v53 (ix1 r) k = ix2 r k := by
  funext a; match a with | ⟨0, _⟩ => rfl | ⟨1, _⟩ => rfl
theorem idx24 (r : Fin 10000) (u : Fin 1) : idx_main_v24 (ix2 r u) = ix1 r := by
  funext a; match a with | ⟨0, _⟩ => rfl
theorem idx54 (r : Fin 10000) (u : Fin 1) : idx_main_v54 (ix2 r u) = ix1 r := by
  funext a; match a with | ⟨0, _⟩ => rfl
theorem idx28 (r : Fin 10000) (c : Fin 128) : idx_main_v28 (ix2 r c) = ix2 r (0 : Fin 1) := by
  funext a; match a with | ⟨0, _⟩ => rfl | ⟨1, _⟩ => rfl
theorem idx58 (r : Fin 10000) (c : Fin 128) : idx_main_v58 (ix2 r c) = ix2 r (0 : Fin 1) := by
  funext a; match a with | ⟨0, _⟩ => rfl | ⟨1, _⟩ => rfl

/-- A bias vector as a 1×128 row reads the vector at the feature. -/
theorem biasRow_apply (x : FVec Ideal S128 .f32) (h : S128.ShapeCasts S1x128) (c : Fin 128) :
    shapeCast S1x128 x h (ix2 (0 : Fin 1) c) = x (ix1 c) :=
  shapeCast_a_1a_apply (a := 128) x h 0 c

/-! ## The first layer -/

/-- The embeddings after the first layer. -/
theorem new1_eq (x0 : FVec Ideal S10000x10000 .f32) (x1 : FVec Ideal S10000x128 .f32) (x2 : FVec Ideal S128x128 .f32) (x3 : FVec Ideal S128 .f32) (x4 : FVec Ideal S128x128 .f32) (x5 : FVec Ideal S128 .f32) (h3 h5 : S128.ShapeCasts S1x128) :
    val_main_v21 (F := Ideal) x0 x1 x2 x3 x4 x5 = newArr x0 x1 x1 x2 (shapeCast S1x128 x3 h3) x4 (shapeCast S1x128 x5 h5) := by
  funext i
  obtain ⟨r, c, rfl⟩ : ∃ (r : Fin 10000) (c : Fin 128), i = ix2 r c := ⟨i 0, i 1, eq_ix2 i⟩
  rw [newArr_apply]
  unfold newOf rowNew rowDense rowSide leaky
  simp only [val_main_v21_apply, val_main_v10_apply, val_main_v20_apply, val_main_v7_apply, val_main_v17_apply, val_main_v9_apply, val_main_v19_apply, val_main_v5_apply, val_main_v15_apply, val_main_v6_apply, val_main_v16_apply, val_main_v8_apply, val_main_v18_apply, val_main_cst_apply, val_main_cst_0_apply, val_main_cst_1_apply, val_main_cst_2_apply, val_main_v2_apply, val_main_v12_apply, val_main_v1_apply, val_main_v11_apply, val_main_v0_apply, val_main_v4_apply, val_main_v14_apply, val_main_v3_apply, val_main_v13_apply,
    lidx0, ridx0, lidx2, ridx2, lidx12, ridx12, idx3, idx4, idx13, idx14, biasRow_apply,
    Ideal.addf_def, Ideal.mulf_def, Ideal.cmpf_def, Ideal.ofBits_def]

/-- The first normalised result. -/
theorem norm1_eq (x0 : FVec Ideal S10000x10000 .f32) (x1 : FVec Ideal S10000x128 .f32) (x2 : FVec Ideal S128x128 .f32) (x3 : FVec Ideal S128 .f32) (x4 : FVec Ideal S128x128 .f32) (x5 : FVec Ideal S128 .f32) :
    val_main_v29 (F := Ideal) x0 x1 x2 x3 x4 x5 = normArr (val_main_v21 (F := Ideal) x0 x1 x2 x3 x4 x5) := by
  funext i
  obtain ⟨r, c, rfl⟩ : ∃ (r : Fin 10000) (c : Fin 128), i = ix2 r c := ⟨i 0, i 1, eq_ix2 i⟩
  rw [normArr_apply]
  unfold normOf rowNorm
  simp only [val_main_v29_apply, val_main_v28_apply, val_main_v27_apply, val_main_v26_apply, val_main_v25_apply, val_main_v24_apply, val_main_v23_apply, val_main_v22_apply, val_main_cst_3_apply, val_main_cst_4_apply, idx28, idx24, idx23,
    Ideal.hostDivf_def, Ideal.maximumf_def, Ideal.hostUnary_sqrt_def, Ideal.mulf_def, Ideal.ofBits_def, Ideal.ofBits_zero_f32, zero_add]

/-! ## The second layer -/

/-- The embeddings after the second layer, from the first layer's. -/
theorem new2_eq (x0 : FVec Ideal S10000x10000 .f32) (x1 : FVec Ideal S10000x128 .f32) (x2 : FVec Ideal S128x128 .f32) (x3 : FVec Ideal S128 .f32) (x4 : FVec Ideal S128x128 .f32) (x5 : FVec Ideal S128 .f32) (x6 : FVec Ideal S128x128 .f32) (x7 : FVec Ideal S128 .f32) (x8 : FVec Ideal S128x128 .f32) (x9 : FVec Ideal S128 .f32) (h7 h9 : S128.ShapeCasts S1x128) :
    val_main_v51 (F := Ideal) x0 x1 x2 x3 x4 x5 x6 x7 x8 x9
      = newArr x0 (val_main_v21 (F := Ideal) x0 x1 x2 x3 x4 x5) (val_main_v21 (F := Ideal) x0 x1 x2 x3 x4 x5) x6 (shapeCast S1x128 x7 h7) x8 (shapeCast S1x128 x9 h9) := by
  funext i
  obtain ⟨r, c, rfl⟩ : ∃ (r : Fin 10000) (c : Fin 128), i = ix2 r c := ⟨i 0, i 1, eq_ix2 i⟩
  rw [newArr_apply]
  unfold newOf rowNew rowDense rowSide leaky
  simp only [val_main_v51_apply, val_main_v40_apply, val_main_v50_apply, val_main_v37_apply, val_main_v47_apply, val_main_v39_apply, val_main_v49_apply, val_main_v35_apply, val_main_v45_apply, val_main_v36_apply, val_main_v46_apply, val_main_v38_apply, val_main_v48_apply, val_main_cst_5_apply, val_main_cst_6_apply, val_main_cst_7_apply, val_main_cst_8_apply, val_main_v32_apply, val_main_v42_apply, val_main_v31_apply, val_main_v41_apply, val_main_v30_apply, val_main_v34_apply, val_main_v44_apply, val_main_v33_apply, val_main_v43_apply,
    lidx30, ridx30, lidx32, ridx32, lidx42, ridx42, idx33, idx34, idx43, idx44, biasRow_apply,
    Ideal.addf_def, Ideal.mulf_def, Ideal.cmpf_def, Ideal.ofBits_def]

/-- The second normalised result. -/
theorem norm2_eq (x0 : FVec Ideal S10000x10000 .f32) (x1 : FVec Ideal S10000x128 .f32) (x2 : FVec Ideal S128x128 .f32) (x3 : FVec Ideal S128 .f32) (x4 : FVec Ideal S128x128 .f32) (x5 : FVec Ideal S128 .f32) (x6 : FVec Ideal S128x128 .f32) (x7 : FVec Ideal S128 .f32) (x8 : FVec Ideal S128x128 .f32) (x9 : FVec Ideal S128 .f32) :
    val_main_v59 (F := Ideal) x0 x1 x2 x3 x4 x5 x6 x7 x8 x9 = normArr (val_main_v51 (F := Ideal) x0 x1 x2 x3 x4 x5 x6 x7 x8 x9) := by
  funext i
  obtain ⟨r, c, rfl⟩ : ∃ (r : Fin 10000) (c : Fin 128), i = ix2 r c := ⟨i 0, i 1, eq_ix2 i⟩
  rw [normArr_apply]
  unfold normOf rowNorm
  simp only [val_main_v59_apply, val_main_v58_apply, val_main_v57_apply, val_main_v56_apply, val_main_v55_apply, val_main_v54_apply, val_main_v53_apply, val_main_v52_apply, val_main_cst_9_apply, val_main_cst_10_apply, idx58, idx54, idx53,
    Ideal.hostDivf_def, Ideal.maximumf_def, Ideal.hostUnary_sqrt_def, Ideal.mulf_def, Ideal.ofBits_def, Ideal.ofBits_zero_f32, zero_add]

end Cert.ReferenceIdeal.RefValue

end
-- ==== Proof.lean ====
/-
  A two-layer bi-interaction graph convolution over a dense adjacency, as a kernel per layer, against its plain
  array-level reference.

  The kernel's program runs each layer as one region over 25 blocks of 400 nodes: the block's adjacency rows against all
  embeddings (the matrix unit's product, its inputs in a narrower format — no change at the ideal values), the two dense
  layers, the leaky rectifier, their sum, and the sum's rows normalised; the first layer's embeddings feed the second
  layer both as the aggregated operand and as the operand combined elementwise. The reference computes the same for all
  10000 nodes at once.

  Both are the specification of LayerSpec.lean: the embeddings after layer 1 are `newArr` of the arguments, those after
  layer 2 are `newArr` with layer 1's embeddings in both places, and the two results beside the embeddings themselves are
  `normArr` of each. No law of arithmetic is needed to join the two sides — every sum is the same sum over the same index
  set in the same order — so the finiteness of the inputs is never used.

  * frames: the generated frame certificates for the kernel at both instances; the reference's generated run with its
    results dropped.
  * preserves: the ideal pass rewrote nothing.
  * algebraic: the kernel's run with its results named (KernelRun.lean), each region's output arrays as functions of
    what the region finds (Region0Value.lean, Region1Value.lean), what each region finds as functions of the launch
    memory (KernelRun.lean), and the reference's results as the same functions (RefRead.lean).
-/
import proofs.«123246_g30846455120404_cont_sun_m_190_2_alg».proof.Defs
import proofs.«123246_g30846455120404_cont_sun_m_190_2_alg».proof.Proof.Gen.Kernel
import proofs.«123246_g30846455120404_cont_sun_m_190_2_alg».proof.Proof.Gen.Kernel.Skeleton
import proofs.«123246_g30846455120404_cont_sun_m_190_2_alg».proof.Proof.Gen.Kernel.Launch
import proofs.«123246_g30846455120404_cont_sun_m_190_2_alg».proof.Proof.Gen.Kernel.Points
import proofs.«123246_g30846455120404_cont_sun_m_190_2_alg».proof.Proof.Gen.Kernel.Frame
import proofs.«123246_g30846455120404_cont_sun_m_190_2_alg».proof.Proof.Gen.KernelIdeal
import proofs.«123246_g30846455120404_cont_sun_m_190_2_alg».proof.Proof.Gen.KernelIdeal.Skeleton
import proofs.«123246_g30846455120404_cont_sun_m_190_2_alg».proof.Proof.Gen.KernelIdeal.Launch
import proofs.«123246_g30846455120404_cont_sun_m_190_2_alg».proof.Proof.Gen.KernelIdeal.Points
import proofs.«123246_g30846455120404_cont_sun_m_190_2_alg».proof.Proof.Gen.KernelIdeal.Frame
import proofs.«123246_g30846455120404_cont_sun_m_190_2_alg».proof.Proof.Gen.ReferenceIdeal
import proofs.«123246_g30846455120404_cont_sun_m_190_2_alg».proof.Proof.Gen.Pre_finite_inputs
import proofs.«123246_g30846455120404_cont_sun_m_190_2_alg».proof.Proof.LayerSpec
import proofs.«123246_g30846455120404_cont_sun_m_190_2_alg».proof.Proof.KernelRun
import proofs.«123246_g30846455120404_cont_sun_m_190_2_alg».proof.Proof.Region0Value
import proofs.«123246_g30846455120404_cont_sun_m_190_2_alg».proof.Proof.Region1Value
import proofs.«123246_g30846455120404_cont_sun_m_190_2_alg».proof.Proof.RefRunP
import proofs.«123246_g30846455120404_cont_sun_m_190_2_alg».proof.Proof.RefReadP
import proofs.«123246_g30846455120404_cont_sun_m_190_2_alg».proof.Proof.RefRead
import Idealize.ShloMosaic.Adequacy
import Idealize.ShloMosaic.Init

noncomputable section

namespace Cert.Proof

open Idealize.ShloMosaic Idealize.ShloMosaic.TcCoe Idealize.SL.Sem Cert.BiLayer

/-! ## The two results as functions of the launch memory -/

section Values

variable (m : (ℓ : Loc Cert.KernelIdeal.nD Cert.KernelIdeal.τ Cert.KernelIdeal.sig) → Buf (Elt Ideal) ℓ) (c : Dev Cert.KernelIdeal.nD)

/-- The embeddings after the first layer. -/
def emb1 : Cert.KernelIdeal.S10000x128.Idx → EReal :=
  newArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (shapeCast Cert.KernelIdeal.S1x128 (m ((c.tc : Thread Cert.KernelIdeal.nD Cert.KernelIdeal.τ).loc Cert.KernelIdeal.main_arg3)) Cert.KernelIdeal.Gen.shapeCasts_S128_S1x128) (m ((c.tc : Thread Cert.KernelIdeal.nD Cert.KernelIdeal.τ).loc Cert.KernelIdeal.main_arg4)) (shapeCast Cert.KernelIdeal.S1x128 (m ((c.tc : Thread Cert.KernelIdeal.nD Cert.KernelIdeal.τ).loc Cert.KernelIdeal.main_arg5)) Cert.KernelIdeal.Gen.shapeCasts_S128_S1x128)

/-- The embeddings after the second layer. -/
def emb2 : Cert.KernelIdeal.S10000x128.Idx → EReal :=
  newArr (m ((c.tc : Thread Cert.KernelIdeal.nD Cert.KernelIdeal.τ).loc Cert.KernelIdeal.main_arg0)) (emb1 m c) (emb1 m c) (m ((c.tc : Thread Cert.KernelIdeal.nD Cert.KernelIdeal.τ).loc Cert.KernelIdeal.main_arg6)) (shapeCast Cert.KernelIdeal.S1x128 (m ((c.tc : Thread Cert.KernelIdeal.nD Cert.KernelIdeal.τ).loc Cert.KernelIdeal.main_arg7)) Cert.KernelIdeal.Gen.shapeCasts_S128_S1x128) (m ((c.tc : Thread Cert.KernelIdeal.nD Cert.KernelIdeal.τ).loc Cert.KernelIdeal.main_arg8)) (shapeCast Cert.KernelIdeal.S1x128 (m ((c.tc : Thread Cert.KernelIdeal.nD Cert.KernelIdeal.τ).loc Cert.KernelIdeal.main_arg9)) Cert.KernelIdeal.Gen.shapeCasts_S128_S1x128)

variable (ρ : Dev Cert.KernelIdeal.nD → PrngReg)

open Cert.KernelIdeal Cert.KernelIdeal.Gen Cert.KernelIdeal.WholeRun in
/-- The first region's first output array after its run: the first layer's embeddings. -/
theorem region0_new : (dat0 (V1 m ρ) c).arrAt 7 cfg0.N = emb1 m c := by
  rw [Cert.KernelIdeal.Region0.final7, V1_main_arg0, V1_main_v0, V1_main_arg1, V1_main_arg2, V1_main_v1, V1_main_arg4, V1_main_v2]
  rfl

open Cert.KernelIdeal Cert.KernelIdeal.Gen Cert.KernelIdeal.WholeRun in
/-- Its second output array: the same, in the matrix unit's input format. -/
theorem region0_newbf : (dat0 (V1 m ρ) c).arrAt 8 cfg0.N = emb1 m c := by
  rw [Cert.KernelIdeal.Region0.final8, V1_main_arg0, V1_main_v0, V1_main_arg1, V1_main_arg2, V1_main_v1, V1_main_arg4, V1_main_v2]
  rfl

open Cert.KernelIdeal Cert.KernelIdeal.Gen Cert.KernelIdeal.WholeRun in
/-- Its third output array: the first layer's embeddings, rows normalised. -/
theorem region0_norm : (dat0 (V1 m ρ) c).arrAt 9 cfg0.N = normArr (emb1 m c) := by
  rw [Cert.KernelIdeal.Region0.final9, V1_main_arg0, V1_main_v0, V1_main_arg1, V1_main_arg2, V1_main_v1, V1_main_arg4, V1_main_v2]
  rfl

open Cert.KernelIdeal Cert.KernelIdeal.Gen Cert.KernelIdeal.WholeRun in
/-- The second region's third output array: the second layer's embeddings, rows normalised. -/
theorem region1_norm : (dat1 (V3 m ρ) c).arrAt 9 cfg1.N = normArr (emb2 m c) := by
  rw [Cert.KernelIdeal.Region1.final9, V3_main_arg0, V3_main_v3_1, V3_main_v3_0, V3_main_arg6, V3_main_v4, V3_main_arg8, V3_main_v5,
    region0_new, region0_newbf]
  rfl

end Values

/-! ## The claims -/

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its generated run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2) (Cert.ReferenceIdeal.ValueP.run (F := Ideal) m ρ)

/-- From memories agreeing on the arguments both programs end with the embeddings argument and the two normalised arrays
    of the specification. -/
theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' _ hagree
  refine ⟨fun c => (m ((c.tc : Thread Cert.KernelIdeal.nD Cert.KernelIdeal.τ).loc Cert.KernelIdeal.main_arg1)), fun c => normArr (emb1 m c), fun c => normArr (emb2 m c), ?_, ?_⟩
  · exact (θ_run Cert.KernelIdeal.defs _ _).mono (fun r h c =>
      ⟨(h c).2.2.2.1, (h c).1.trans (region0_norm m c ρ), (h c).2.1.trans (region1_norm m c ρ), (h c).2.2⟩)
      (Cert.KernelIdeal.WholeRun.run_results (F := Ideal) m ρ)
  · refine (θ_run Cert.ReferenceIdeal.defs _ _).mono (fun r h c => ⟨(h c).1.trans (hagree c).2.1, (h c).2.1.trans ?_, (h c).2.2.1.trans ?_, (h c).2.2.2⟩)
      (Cert.ReferenceIdeal.ValueP.run (F := Ideal) m' ρ')
    · rw [Cert.ReferenceIdeal.ReadP.val_main_v29_eq, Cert.ReferenceIdeal.RefValue.norm1_eq,
        Cert.ReferenceIdeal.RefValue.new1_eq _ _ _ _ _ _ Cert.KernelIdeal.Gen.shapeCasts_S128_S1x128 Cert.KernelIdeal.Gen.shapeCasts_S128_S1x128,
        (hagree c).1, (hagree c).2.1, (hagree c).2.2.1, (hagree c).2.2.2.1, (hagree c).2.2.2.2.1, (hagree c).2.2.2.2.2.1]
      rfl
    · rw [Cert.ReferenceIdeal.ReadP.val_main_v59_eq, Cert.ReferenceIdeal.RefValue.norm2_eq,
        Cert.ReferenceIdeal.RefValue.new2_eq _ _ _ _ _ _ _ _ _ _ Cert.KernelIdeal.Gen.shapeCasts_S128_S1x128 Cert.KernelIdeal.Gen.shapeCasts_S128_S1x128,
        Cert.ReferenceIdeal.RefValue.new1_eq _ _ _ _ _ _ Cert.KernelIdeal.Gen.shapeCasts_S128_S1x128 Cert.KernelIdeal.Gen.shapeCasts_S128_S1x128,
        (hagree c).1, (hagree c).2.1, (hagree c).2.2.1, (hagree c).2.2.2.1, (hagree c).2.2.2.2.1, (hagree c).2.2.2.2.2.1,
        (hagree c).2.2.2.2.2.2.1, (hagree c).2.2.2.2.2.2.2.1, (hagree c).2.2.2.2.2.2.2.2.1, (hagree c).2.2.2.2.2.2.2.2.2]
      rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
